-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x64 .f32) (main_arg1 : IVec S2x1600000 32) (main_arg2 : FVec F S64x128 .f32) (main_arg3 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S5000x64 : Shape := ⟨2, ![5000, 64]⟩
abbrev S5000x1 : Shape := ⟨2, ![5000, 1]⟩
abbrev S100000x128 : Shape := ⟨2, ![100000, 128]⟩
abbrev S5000x128 : Shape := ⟨2, ![5000, 128]⟩
abbrev S1x128 : Shape := ⟨2, ![1, 128]⟩

abbrev nBuf : Space → Nat
  | .hbm => 78
  | .vmem => 38
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x64, .f32⟩
  | .hbm, ⟨77, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x128, .f32⟩
  | .local _ .vmem, ⟨35, _⟩ => ⟨S128, .f32⟩
  | .local _ .vmem, ⟨36, _⟩ => ⟨S5000x128, .f32⟩
  | .local _ .vmem, ⟨37, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_v35 : Ref sig .tc := ⟨.hbm, 50, rfl⟩
abbrev main_v36 : Ref sig .tc := ⟨.hbm, 51, rfl⟩
abbrev main_c_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v56) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg3) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000x64, .f32⟩
  | .hbm, ⟨107, _⟩ => ⟨S100000x64, .f32⟩
  | .hbm, ⟨108, _⟩ => ⟨S_, .f32⟩
  | .hbm, ⟨109, _⟩ => ⟨S100000x64, .f32⟩
  | .hbm, ⟨110, _⟩ => ⟨S100000x64, .f32⟩
  | .hbm, ⟨111, _⟩ => ⟨S100000x64, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_call1_cst : Ref sig .tc := ⟨.hbm, 62, rfl⟩
abbrev main_call1_v0 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_call2_cst : Ref sig .tc := ⟨.hbm, 85, rfl⟩
abbrev main_call2_v0 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_17 : Ref sig .tc := ⟨.hbm, 105, rfl⟩
abbrev main_v76 : Ref sig .tc := ⟨.hbm, 106, rfl⟩
abbrev main_v77 : Ref sig .tc := ⟨.hbm, 107, rfl⟩
abbrev main_call3_cst : Ref sig .tc := ⟨.hbm, 108, rfl⟩
abbrev main_call3_v0 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.Whole.lean ====
/-
  The network's run with its result named.

  The program is nine segments in order: four stretches of array operations and five calls, the last two back to back.
  Every weakly fair execution runs them to the end without a fault; the contents of every buffer that outlives a call
  are then a fold through the segments from the launch contents — a stretch applies its operations, a call replaces
  its output array by what its twenty write-backs leave. So the result buffer ends at that fold read at the result,
  and the four argument arrays end as launched (no segment writes one).
-/
import proofs.«182166_j7241314861278_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the fold of the nine segments
    read at the result, and the argument arrays as launched. -/
theorem run_named : θ_run defs (onTc (τ := τ) (main (F := F))) ⟨m, fun _ => 0, ρ⟩ (fun r => ∀ c : Dev nD,
      r.2.mem ((c.tc : Thread nD τ).loc main_v57) = W9 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v57 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.KernelIdeal.Whole

end
-- ==== Proof.LibColumn.lean ====
/-
  Layout operations read at an index given by coordinates: the KEEP-DIMS COLUMN forms, beside the library's
  leading-unit-axis forms (Lib/ValueLayout.lean). A sum taken with its axis kept leaves a trailing unit axis: a vector
  `[a]` is cast to the column `[a, 1]`, a matrix `[a, b]` to `[a, b, 1]`, and such a column or trailing-unit block is then
  broadcast along the unit axis (`[a, 1]` to `[a, b]`, `[a, b, 1]` to `[a, b, c]`); a `[1, b, c]` block is broadcast down a
  new leading extent (`[1, b, c]` to `[a, b, c]`). Each lemma reads one such operation at an index written `ixN …`
  (Lib/ValueIdx.lean) as the operand at the index with the unit coordinate dropped or set to `0`; each is the parent
  lemma of Lib/Pipeline/Value.lean (`shapeCast_apply`, `broadcastTo_apply`) with the coordinates' arithmetic done.
-/
import Idealize.ShloMosaic.Lib.ValueLayout

namespace Cert.LibColumn

open Idealize.ShloMosaic Idealize.ShloMosaic.ValueIdx

variable {α : Type}

/-! ## A trailing unit axis added by a shape cast -/

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast -/

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` block broadcast to `[a, b, c]` reads, at `(i, j, e)`, the block at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` block broadcast to `[a, b, c]` reads, at `(p, i, j)`, the block at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibColumn
-- ==== Proof.LibSpreadRow.lean ====
/-
  Row vectors and scalar constants spread over an array, read at an index (over any element type; the last two over
  the extended reals).

  A length-C vector b becomes a [1, C] row either by a reshape or by a broadcast along a new leading axis; spread over
  N rows, entry (p, q) of the result is b(q) either way.  A scalar constant spread over any shape reads the constant
  everywhere.  The host's reciprocal square root of an array is taken entry by entry.
-/
import Idealize.ShloMosaic.Lib.ValueIdx
import Idealize.ShloMosaic.Lib.Pipeline.Value
import Idealize.ShloMosaic.PureOps.Ideal.Laws

noncomputable section

namespace Cert.LibSpreadRow

open Idealize.ShloMosaic Idealize.ShloMosaic.ValueIdx

variable {N C : ℕ}

/-- A vector made a row by a broadcast along a new leading axis and then spread over N rows: entry (p, q) is b(q). -/
theorem spread_row_apply {α : Type} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 b) (ix2 p q) = b (ix1 q) := by
  have e2 : broadcastInDim ⟨2, ![N, C]⟩ ![0, 1] h2 (broadcastInDim ⟨2, ![1, C]⟩ ![1] h1 b) (ix2 p q)
      = broadcastInDim ⟨2, ![1, C]⟩ ![1] h1 b (ix2 0 q) := by
    refine broadcastInDim_apply ![0, 1] h2 _ (ix2 p q) (ix2 0 q) fun a => ?_
    match a with
    | ⟨0, _⟩ => show (0 : ℕ) = if (1 : ℕ) = 1 then 0 else p.val; rfl
    | ⟨1, _⟩ =>
      show q.val = if C = 1 then 0 else q.val
      split
      · have := q.isLt; omega
      · rfl
  have e1 : broadcastInDim ⟨2, ![1, C]⟩ ![1] h1 b (ix2 0 q) = b (ix1 q) := by
    refine broadcastInDim_apply ![1] h1 b (ix2 0 q) (ix1 q) fun a => ?_
    match a with
    | ⟨0, _⟩ =>
      show q.val = if C = 1 then 0 else q.val
      split
      · have := q.isLt; omega
      · rfl
  rw [e2, e1]

/-- A vector reshaped to a [1, C] row, read at (0, q), is b(q). -/
theorem reshape_row_apply {α : Type} (b : (⟨1, ![C]⟩ : Shape).Idx → α)
    (h : (⟨1, ![C]⟩ : Shape).ShapeCasts ⟨2, ![1, C]⟩) (q : Fin C) :
    shapeCast ⟨2, ![1, C]⟩ b h (ix2 0 q) = b (ix1 q) := by
  refine shapeCast_apply b h (ix2 0 q) (ix1 q) ?_
  rw [Shape.rowMajor_val_one, Shape.rowMajor_val_two]
  show q.val = (0 : Fin 1).val * C + q.val
  simp

/-- A scalar constant spread over any shape reads the constant's value everywhere. -/
theorem spread_const_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w :=
  (broadcastInDim_apply (s := ⟨0, ![]⟩) ![] h (constant (F := Ideal) ⟨0, ![]⟩ φ w) j (fun a => a.elim0) (fun a => a.elim0)).trans rfl

/-- The host's reciprocal square root of an array, read at an index. -/
theorem host_rsqrt_apply {s : Shape} {φ : FTy} (v : FVec Ideal s φ) (i : s.Idx) : Host.rsqrt v i = Ideal.rsqrt (v i) := rfl

end Cert.LibSpreadRow

end
-- ==== Proof.Layer.lean ====
/-
  One refinement layer of a graph network on N nodes with D features, entry by entry over the extended reals.

  From the node features h, the per-node sum a of the neighbours' features and the column d of reciprocal degrees,
  a layer forms  max(½ · (h + a · d), 0):  a node's own features averaged with the mean of its neighbours', then
  rectified. The residual layer adds h back:  h + max(½ · (h + a · d), 0).  Entry (p, q) depends on row p only:
  on h (p, q), a (p, q) and the one reciprocal degree d (p, 0).

  Two spellings of each are read at an entry and shown to be that function: the vector spelling (the column d
  broadcast along the feature axis, ½ and 0 splat from scalars) and the array spelling (d, ½ and 0 each spread
  by a broadcast-in-dimension). No law of arithmetic is used, so nothing has to be finite.
-/
import Idealize.ShloMosaic.PureOps.Ideal.Laws
import Idealize.ShloMosaic.Lib.ValueIdx
import Idealize.ShloMosaic.Lib.ValueLayout
import Idealize.ShloMosaic.Lib.Pipeline.Value
import proofs.«182166_j7241314861278_1_alg».proof.Proof.LibColumn
import proofs.«182166_j7241314861278_1_alg».proof.Proof.LibSpreadRow

noncomputable section

namespace Cert.Layer

open Idealize.ShloMosaic Idealize.ShloMosaic.ValueIdx

variable {N D : ℕ}

/-- One half, as the float word both programs spell. -/
abbrev half : EReal := Ideal.ofBits .f32 0x3F000000#32
/-- Zero, as the float word both programs spell. -/
abbrev zero : EReal := Ideal.ofBits .f32 0x00000000#32

/-- The layer: entry i is max(½ · (h i + a i · d (row of i, 0)), 0). -/
def mix (h a : (⟨2, ![N, D]⟩ : Shape).Idx → EReal) (d : (⟨2, ![N, 1]⟩ : Shape).Idx → EReal) :
    (⟨2, ![N, D]⟩ : Shape).Idx → EReal :=
  fun i => max (half * (h i + a i * d (ix2 (n0 := N) (i 0) (0 : Fin 1)))) zero

/-- The residual layer: h plus the layer. -/
def mixRes (h a : (⟨2, ![N, D]⟩ : Shape).Idx → EReal) (d : (⟨2, ![N, 1]⟩ : Shape).Idx → EReal) :
    (⟨2, ![N, D]⟩ : Shape).Idx → EReal :=
  fun i => h i + mix h a d i

theorem mix_ix2 (h a : (⟨2, ![N, D]⟩ : Shape).Idx → EReal) (d : (⟨2, ![N, 1]⟩ : Shape).Idx → EReal) (p : Fin N) (q : Fin D) :
    mix h a d (ix2 p q) = max (half * (h (ix2 p q) + a (ix2 p q) * d (ix2 p (0 : Fin 1)))) zero := rfl

theorem mixRes_ix2 (h a : (⟨2, ![N, D]⟩ : Shape).Idx → EReal) (d : (⟨2, ![N, 1]⟩ : Shape).Idx → EReal) (p : Fin N) (q : Fin D) :
    mixRes h a d (ix2 p q) = h (ix2 p q) + max (half * (h (ix2 p q) + a (ix2 p q) * d (ix2 p (0 : Fin 1)))) zero := rfl

/-! ## Row locality -/

/-- The layer of M rows taken out of the arrays is the layer of the arrays at those rows: if blocks bh, ba, bd hold
    h, a and d along a map e of indices that keeps the column and sends a block's row to one array row (so that the
    column block at a row is d at the image row), then the layer of the blocks at j is the layer of the arrays at e j. -/
theorem mix_of_rows {M : ℕ} (h a : (⟨2, ![N, D]⟩ : Shape).Idx → EReal) (d : (⟨2, ![N, 1]⟩ : Shape).Idx → EReal)
    (bh ba : (⟨2, ![M, D]⟩ : Shape).Idx → EReal) (bd : (⟨2, ![M, 1]⟩ : Shape).Idx → EReal)
    (e : (⟨2, ![M, D]⟩ : Shape).Idx → (⟨2, ![N, D]⟩ : Shape).Idx)
    (hh : ∀ j, bh j = h (e j)) (ha : ∀ j, ba j = a (e j))
    (hd : ∀ j, bd (ix2 (n0 := M) (j 0) (0 : Fin 1)) = d (ix2 (n0 := N) (e j 0) (0 : Fin 1)))
    (j : (⟨2, ![M, D]⟩ : Shape).Idx) : mix bh ba bd j = mix h a d (e j) := by
  unfold mix
  rw [hh, ha, hd]

/-- The same for the residual layer. -/
theorem mixRes_of_rows {M : ℕ} (h a : (⟨2, ![N, D]⟩ : Shape).Idx → EReal) (d : (⟨2, ![N, 1]⟩ : Shape).Idx → EReal)
    (bh ba : (⟨2, ![M, D]⟩ : Shape).Idx → EReal) (bd : (⟨2, ![M, 1]⟩ : Shape).Idx → EReal)
    (e : (⟨2, ![M, D]⟩ : Shape).Idx → (⟨2, ![N, D]⟩ : Shape).Idx)
    (hh : ∀ j, bh j = h (e j)) (ha : ∀ j, ba j = a (e j))
    (hd : ∀ j, bd (ix2 (n0 := M) (j 0) (0 : Fin 1)) = d (ix2 (n0 := N) (e j 0) (0 : Fin 1)))
    (j : (⟨2, ![M, D]⟩ : Shape).Idx) : mixRes bh ba bd j = mixRes h a d (e j) := by
  unfold mixRes
  rw [hh, mix_of_rows h a d bh ba bd e hh ha hd]

/-! ## The vector spelling -/

/-- The layer written with vector operations: the column broadcast along the feature axis, the two constants splat. -/
theorem vector_mix (h a : FVec Ideal ⟨2, ![N, D]⟩ .f32) (d : FVec Ideal ⟨2, ![N, 1]⟩ .f32)
    (hb : (⟨2, ![N, 1]⟩ : Shape).Broadcasts ⟨2, ![N, D]⟩) :
    maximumf (mulf (broadcast ⟨2, ![N, D]⟩ (Scalar.ofBits (F := Ideal) .f32 0x3F000000#32))
        (addf h (mulf a (broadcastTo ⟨2, ![N, D]⟩ d hb))))
      (broadcast ⟨2, ![N, D]⟩ (Scalar.ofBits (F := Ideal) .f32 0x00000000#32))
    = mix h a d := by
  funext i
  obtain ⟨p, q, rfl⟩ : ∃ (p : Fin N) (q : Fin D), i = ix2 p q := ⟨i 0, i 1, eq_ix2 i⟩
  rw [mix_ix2]
  show max (half * (h (ix2 p q) + a (ix2 p q) * broadcastTo ⟨2, ![N, D]⟩ d hb (ix2 p q))) zero = _
  rw [Cert.LibColumn.broadcastTo_a1_ab_apply]

/-- The residual layer written with vector operations. -/
theorem vector_mixRes (h a : FVec Ideal ⟨2, ![N, D]⟩ .f32) (d : FVec Ideal ⟨2, ![N, 1]⟩ .f32)
    (hb : (⟨2, ![N, 1]⟩ : Shape).Broadcasts ⟨2, ![N, D]⟩) :
    addf h (maximumf (mulf (broadcast ⟨2, ![N, D]⟩ (Scalar.ofBits (F := Ideal) .f32 0x3F000000#32))
        (addf h (mulf a (broadcastTo ⟨2, ![N, D]⟩ d hb))))
      (broadcast ⟨2, ![N, D]⟩ (Scalar.ofBits (F := Ideal) .f32 0x00000000#32)))
    = mixRes h a d := by
  funext i
  show h i + _ = h i + mix h a d i
  rw [← vector_mix h a d hb]

/-! ## The array spelling -/

/-- A column [N, 1] spread to [N, D] by a broadcast-in-dimension along both axes reads, at (p, q), the column at (p, 0). -/
theorem spread_column_apply {α : Type} (d : (⟨2, ![N, 1]⟩ : Shape).Idx → α)
    (hd : (⟨2, ![N, 1]⟩ : Shape).BroadcastsInDim ⟨2, ![N, D]⟩ ![0, 1]) (p : Fin N) (q : Fin D) :
    broadcastInDim ⟨2, ![N, D]⟩ ![0, 1] hd d (ix2 p q) = d (ix2 p (0 : Fin 1)) :=
  broadcastInDim_apply _ hd d (ix2 p q) (ix2 p (0 : Fin 1)) (fun a => match a with
    | ⟨0, _⟩ => by
        show p.val = if N = 1 then 0 else p.val
        split
        · have := p.isLt; omega
        · rfl
    | ⟨1, _⟩ => by
        show 0 = if (1 : ℕ) = 1 then 0 else q.val
        rw [if_pos rfl])

/-- The layer written with array operations: the column and the two scalar constants each spread by a broadcast-in-dimension. -/
theorem array_mix (h a : FVec Ideal ⟨2, ![N, D]⟩ .f32) (d : FVec Ideal ⟨2, ![N, 1]⟩ .f32)
    (hd : (⟨2, ![N, 1]⟩ : Shape).BroadcastsInDim ⟨2, ![N, D]⟩ ![0, 1])
    (hs : (⟨0, ![]⟩ : Shape).BroadcastsInDim ⟨2, ![N, D]⟩ ![]) :
    maximumf (mulf (broadcastInDim ⟨2, ![N, D]⟩ ![] hs (constant (F := Ideal) ⟨0, ![]⟩ .f32 0x3F000000#32))
        (addf h (mulf a (broadcastInDim ⟨2, ![N, D]⟩ ![0, 1] hd d))))
      (broadcastInDim ⟨2, ![N, D]⟩ ![] hs (constant (F := Ideal) ⟨0, ![]⟩ .f32 0x00000000#32))
    = mix h a d := by
  funext i
  obtain ⟨p, q, rfl⟩ : ∃ (p : Fin N) (q : Fin D), i = ix2 p q := ⟨i 0, i 1, eq_ix2 i⟩
  rw [mix_ix2]
  show max (broadcastInDim ⟨2, ![N, D]⟩ ![] hs (constant (F := Ideal) ⟨0, ![]⟩ .f32 0x3F000000#32) (ix2 p q)
      * (h (ix2 p q) + a (ix2 p q) * broadcastInDim ⟨2, ![N, D]⟩ ![0, 1] hd d (ix2 p q)))
    (broadcastInDim ⟨2, ![N, D]⟩ ![] hs (constant (F := Ideal) ⟨0, ![]⟩ .f32 0x00000000#32) (ix2 p q)) = _
  rw [Cert.LibSpreadRow.spread_const_apply, Cert.LibSpreadRow.spread_const_apply, spread_column_apply]

/-- The residual layer written with array operations. -/
theorem array_mixRes (h a : FVec Ideal ⟨2, ![N, D]⟩ .f32) (d : FVec Ideal ⟨2, ![N, 1]⟩ .f32)
    (hd : (⟨2, ![N, 1]⟩ : Shape).BroadcastsInDim ⟨2, ![N, D]⟩ ![0, 1])
    (hs : (⟨0, ![]⟩ : Shape).BroadcastsInDim ⟨2, ![N, D]⟩ ![]) :
    addf h (maximumf (mulf (broadcastInDim ⟨2, ![N, D]⟩ ![] hs (constant (F := Ideal) ⟨0, ![]⟩ .f32 0x3F000000#32))
        (addf h (mulf a (broadcastInDim ⟨2, ![N, D]⟩ ![0, 1] hd d))))
      (broadcastInDim ⟨2, ![N, D]⟩ ![] hs (constant (F := Ideal) ⟨0, ![]⟩ .f32 0x00000000#32)))
    = mixRes h a d := by
  funext i
  show h i + _ = h i + mix h a d i
  rw [← array_mix h a d hd hs]

end Cert.Layer

end
-- ==== Proof.FirstLayer.lean ====
/-
  The first layer, computed 5000 rows at a time: the array it leaves is the layer of the whole arrays.

  Grid point t reads rows 5000·t … 5000·t + 4999 of the features, of the neighbour sums and of the reciprocal-degree
  column, and writes the layer of those rows to the same rows of the output. Entry (p, q) of the layer depends on row p
  of each operand only, so the rows a point writes are the layer of the whole arrays restricted to those rows; the
  twenty blocks cover all 100000 rows, so the output array is the layer of the whole arrays.
-/
import proofs.«182166_j7241314861278_1_alg».proof.Proof.Gen.KernelIdeal.Frame
import proofs.«182166_j7241314861278_1_alg».proof.Proof.Layer
import Idealize.ShloMosaic.Lib.Pipeline.Value

set_option maxRecDepth 16384

noncomputable section

namespace Cert.KernelIdeal.FirstLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a block of rows is the layer of the block. -/
theorem payload (x0 x1 : Vec Ideal S5000x64 .f32) (x2 : Vec Ideal S5000x1 .f32) :
    k0_pay1 (F := Ideal) x0 x1 x2 = Cert.Layer.mix x0 x1 x2 := by
  unfold k0_pay1
  dsimp only
  simp only [shapeCast_self]
  exact Cert.Layer.vector_mix x0 x1 x2 broadcasts_S5000x1_S5000x64

/-- Every window's block at grid point t is block-row t, block-column 0. -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What grid point t writes back is block-row t of the layer of the arrays the call finds. -/
theorem flushed_eq (c : Dev nD) (t : Fin cfg0.N) :
    (dat0 V c).flushed 3 t = ((cfg0.win 3).blk t).view.read (Elt Ideal)
      (Cert.Layer.mix (V c main_arg0) (V c main_v22) (V c main_v12)) := by
  show (cfg0.win 3).cut (grid0.coords t) ((dat0 V c).after 3 t) = _
  rw [after0_3]
  unfold out0_3
  rw [View.canon_unit_zero origin]
  simp only [View.ld_unit_zero (S := S5000x64) origin, View.ld_unit_zero (S := S5000x1) origin]
  rw [payload]
  obtain ⟨e0, e1, e2, e3, e4, e5, e6, e7⟩ := block_rows t
  have hh : ∀ y : S5000x64.Idx, iblk0 V c 0 t y = V c main_arg0 (((cfg0.win 3).blk t).view.emb y) := by
    intro y
    show V c main_arg0 (((cfg0.win 0).blk t).view.emb y) = _
    refine congrArg (V c main_arg0) (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 64 + 1 * (y 1).val = win0_3.index t (1 : Fin 2) * 64 + 1 * (y 1).val; omega
  have ha : ∀ y : S5000x64.Idx, iblk0 V c 1 t y = V c main_v22 (((cfg0.win 3).blk t).view.emb y) := by
    intro y
    show V c main_v22 (((cfg0.win 1).blk t).view.emb y) = _
    refine congrArg (V c main_v22) (funext fun a => Fin.ext ?_)
    match a with
    | ⟨0, _⟩ => show win0_1.index t (0 : Fin 2) * 5000 + 1 * (y 0).val = win0_3.index t (0 : Fin 2) * 5000 + 1 * (y 0).val; omega
    | ⟨1, _⟩ => show win0_1.index t (1 : Fin 2) * 64 + 1 * (y 1).val = win0_3.index t (1 : Fin 2) * 64 + 1 * (y 1).val; omega
  have hd : ∀ y : S5000x64.Idx, iblk0 V c 2 t (ix2 (n0 := 5000) (y 0) (0 : Fin 1))
      = V c main_v12 (ix2 (n0 := 100000) ((((cfg0.win 3).blk t).view.emb y) 0) (0 : Fin 1)) := by
    intro y
    show V c main_v12 (((cfg0.win 2).blk t).view.emb (ix2 (n0 := 5000) (y 0) (0 : Fin 1))) = _
    refine congrArg (V c main_v12) (funext fun a => Fin.ext ?_)
    match a with
    | ⟨0, _⟩ => show win0_2.index t (0 : Fin 2) * 5000 + 1 * (y 0).val = win0_3.index t (0 : Fin 2) * 5000 + 1 * (y 0).val; omega
    | ⟨1, _⟩ => show win0_2.index t (1 : Fin 2) * 1 + 1 * 0 = 0; omega
  funext j
  exact Cert.Layer.mix_of_rows (N := 100000) (D := 64) (M := 5000) (V c main_arg0) (V c main_v22) (V c main_v12)
    (iblk0 V c 0 t) (iblk0 V c 1 t) (iblk0 V c 2 t) (fun y => ((cfg0.win 3).blk t).view.emb y) hh ha hd j

/-- An index of the output array is in grid point t's block iff each coordinate is in the block's range on its axis. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v23).slice (win0_3.rect t)).set ↔ _
  rw [View.set_slice_whole, Rect.mem_set_unit]
  exact Iff.rfl

/-- The twenty blocks of 5000 rows cover the output array: row r is in the block of grid point r / 5000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, e6, e7⟩ := block_rows t
  have ht : t.val = (i 0).val / 5000 := rfl
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the call is the layer of the arrays the call finds. -/
theorem final (c : Dev nD) :
    (dat0 V c).arrAt 3 cfg0.N = Cert.Layer.mix (V c main_arg0) (V c main_v22) (V c main_v12) :=
  (dat0 V c).arrAt_eq_of_cover 3 _ (fun t _ => flushed_eq V c t) covered

end Cert.KernelIdeal.FirstLayer

end
-- ==== Proof.SecondLayer.lean ====
/-
  The second layer (the first residual one), computed 5000 rows at a time.

  Grid point t reads rows 5000·t … 5000·t + 4999 of the features, of the neighbour sums and of the reciprocal-degree
  column, and writes the residual layer of those rows to the same rows of the output. Entry (p, q) depends on row p of
  each operand only, so the rows a point writes are the residual layer of the whole arrays restricted to those rows;
  the twenty blocks cover all 100000 rows, so the output array is the residual layer of the whole arrays.
-/
import proofs.«182166_j7241314861278_1_alg».proof.Proof.Gen.KernelIdeal.Frame
import proofs.«182166_j7241314861278_1_alg».proof.Proof.Layer
import Idealize.ShloMosaic.Lib.Pipeline.Value

set_option maxRecDepth 16384

noncomputable section

namespace Cert.KernelIdeal.SecondLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a block of rows is the layer of the block. -/
theorem payload (x0 x1 : Vec Ideal S5000x64 .f32) (x2 : Vec Ideal S5000x1 .f32) :
    k1_pay1 (F := Ideal) x0 x1 x2 = Cert.Layer.mixRes x0 x1 x2 := by
  unfold k1_pay1
  dsimp only
  simp only [shapeCast_self]
  exact Cert.Layer.vector_mixRes x0 x1 x2 broadcasts_S5000x1_S5000x64

/-- Every window's block at grid point t is block-row t, block-column 0. -/
theorem block_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What grid point t writes back is block-row t of the layer of the arrays the call finds. -/
theorem flushed_eq (c : Dev nD) (t : Fin cfg1.N) :
    (dat1 V c).flushed 3 t = ((cfg1.win 3).blk t).view.read (Elt Ideal)
      (Cert.Layer.mixRes (V c main_v23) (V c main_v33) (V c main_v12)) := by
  show (cfg1.win 3).cut (grid1.coords t) ((dat1 V c).after 3 t) = _
  rw [after1_3]
  unfold out1_3
  rw [View.canon_unit_zero origin]
  simp only [View.ld_unit_zero (S := S5000x64) origin, View.ld_unit_zero (S := S5000x1) origin]
  rw [payload]
  obtain ⟨e0, e1, e2, e3, e4, e5, e6, e7⟩ := block_rows t
  have hh : ∀ y : S5000x64.Idx, iblk1 V c 0 t y = V c main_v23 (((cfg1.win 3).blk t).view.emb y) := by
    intro y
    show V c main_v23 (((cfg1.win 0).blk t).view.emb y) = _
    refine congrArg (V c main_v23) (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 64 + 1 * (y 1).val = win1_3.index t (1 : Fin 2) * 64 + 1 * (y 1).val; omega
  have ha : ∀ y : S5000x64.Idx, iblk1 V c 1 t y = V c main_v33 (((cfg1.win 3).blk t).view.emb y) := by
    intro y
    show V c main_v33 (((cfg1.win 1).blk t).view.emb y) = _
    refine congrArg (V c main_v33) (funext fun a => Fin.ext ?_)
    match a with
    | ⟨0, _⟩ => show win1_1.index t (0 : Fin 2) * 5000 + 1 * (y 0).val = win1_3.index t (0 : Fin 2) * 5000 + 1 * (y 0).val; omega
    | ⟨1, _⟩ => show win1_1.index t (1 : Fin 2) * 64 + 1 * (y 1).val = win1_3.index t (1 : Fin 2) * 64 + 1 * (y 1).val; omega
  have hd : ∀ y : S5000x64.Idx, iblk1 V c 2 t (ix2 (n0 := 5000) (y 0) (0 : Fin 1))
      = V c main_v12 (ix2 (n0 := 100000) ((((cfg1.win 3).blk t).view.emb y) 0) (0 : Fin 1)) := by
    intro y
    show V c main_v12 (((cfg1.win 2).blk t).view.emb (ix2 (n0 := 5000) (y 0) (0 : Fin 1))) = _
    refine congrArg (V c main_v12) (funext fun a => Fin.ext ?_)
    match a with
    | ⟨0, _⟩ => show win1_2.index t (0 : Fin 2) * 5000 + 1 * (y 0).val = win1_3.index t (0 : Fin 2) * 5000 + 1 * (y 0).val; omega
    | ⟨1, _⟩ => show win1_2.index t (1 : Fin 2) * 1 + 1 * 0 = 0; omega
  funext j
  exact Cert.Layer.mixRes_of_rows (N := 100000) (D := 64) (M := 5000) (V c main_v23) (V c main_v33) (V c main_v12)
    (iblk1 V c 0 t) (iblk1 V c 1 t) (iblk1 V c 2 t) (fun y => ((cfg1.win 3).blk t).view.emb y) hh ha hd j

/-- An index of the output array is in grid point t's block iff each coordinate is in the block's range on its axis. -/
theorem mem_block (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v34).slice (win1_3.rect t)).set ↔ _
  rw [View.set_slice_whole, Rect.mem_set_unit]
  exact Iff.rfl

/-- The twenty blocks of 5000 rows cover the output array: row r is in the block of grid point r / 5000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, e6, e7⟩ := block_rows t
  have ht : t.val = (i 0).val / 5000 := rfl
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the call is the layer of the arrays the call finds. -/
theorem final (c : Dev nD) :
    (dat1 V c).arrAt 3 cfg1.N = Cert.Layer.mixRes (V c main_v23) (V c main_v33) (V c main_v12) :=
  (dat1 V c).arrAt_eq_of_cover 3 _ (fun t _ => flushed_eq V c t) covered

end Cert.KernelIdeal.SecondLayer

end
-- ==== Proof.ThirdLayer.lean ====
/-
  The third layer (the second residual one), computed 5000 rows at a time.

  Grid point t reads rows 5000·t … 5000·t + 4999 of the features, of the neighbour sums and of the reciprocal-degree
  column, and writes the residual layer of those rows to the same rows of the output. Entry (p, q) depends on row p of
  each operand only, so the rows a point writes are the residual layer of the whole arrays restricted to those rows;
  the twenty blocks cover all 100000 rows, so the output array is the residual layer of the whole arrays.
-/
import proofs.«182166_j7241314861278_1_alg».proof.Proof.Gen.KernelIdeal.Frame
import proofs.«182166_j7241314861278_1_alg».proof.Proof.Layer
import Idealize.ShloMosaic.Lib.Pipeline.Value

set_option maxRecDepth 16384

noncomputable section

namespace Cert.KernelIdeal.ThirdLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a block of rows is the layer of the block. -/
theorem payload (x0 x1 : Vec Ideal S5000x64 .f32) (x2 : Vec Ideal S5000x1 .f32) :
    k2_pay1 (F := Ideal) x0 x1 x2 = Cert.Layer.mixRes x0 x1 x2 := by
  unfold k2_pay1
  dsimp only
  simp only [shapeCast_self]
  exact Cert.Layer.vector_mixRes x0 x1 x2 broadcasts_S5000x1_S5000x64

/-- Every window's block at grid point t is block-row t, block-column 0. -/
theorem block_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What grid point t writes back is block-row t of the layer of the arrays the call finds. -/
theorem flushed_eq (c : Dev nD) (t : Fin cfg2.N) :
    (dat2 V c).flushed 3 t = ((cfg2.win 3).blk t).view.read (Elt Ideal)
      (Cert.Layer.mixRes (V c main_v34) (V c main_v44) (V c main_v12)) := by
  show (cfg2.win 3).cut (grid2.coords t) ((dat2 V c).after 3 t) = _
  rw [after2_3]
  unfold out2_3
  rw [View.canon_unit_zero origin]
  simp only [View.ld_unit_zero (S := S5000x64) origin, View.ld_unit_zero (S := S5000x1) origin]
  rw [payload]
  obtain ⟨e0, e1, e2, e3, e4, e5, e6, e7⟩ := block_rows t
  have hh : ∀ y : S5000x64.Idx, iblk2 V c 0 t y = V c main_v34 (((cfg2.win 3).blk t).view.emb y) := by
    intro y
    show V c main_v34 (((cfg2.win 0).blk t).view.emb y) = _
    refine congrArg (V c main_v34) (funext fun a => Fin.ext ?_)
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 64 + 1 * (y 1).val = win2_3.index t (1 : Fin 2) * 64 + 1 * (y 1).val; omega
  have ha : ∀ y : S5000x64.Idx, iblk2 V c 1 t y = V c main_v44 (((cfg2.win 3).blk t).view.emb y) := by
    intro y
    show V c main_v44 (((cfg2.win 1).blk t).view.emb y) = _
    refine congrArg (V c main_v44) (funext fun a => Fin.ext ?_)
    match a with
    | ⟨0, _⟩ => show win2_1.index t (0 : Fin 2) * 5000 + 1 * (y 0).val = win2_3.index t (0 : Fin 2) * 5000 + 1 * (y 0).val; omega
    | ⟨1, _⟩ => show win2_1.index t (1 : Fin 2) * 64 + 1 * (y 1).val = win2_3.index t (1 : Fin 2) * 64 + 1 * (y 1).val; omega
  have hd : ∀ y : S5000x64.Idx, iblk2 V c 2 t (ix2 (n0 := 5000) (y 0) (0 : Fin 1))
      = V c main_v12 (ix2 (n0 := 100000) ((((cfg2.win 3).blk t).view.emb y) 0) (0 : Fin 1)) := by
    intro y
    show V c main_v12 (((cfg2.win 2).blk t).view.emb (ix2 (n0 := 5000) (y 0) (0 : Fin 1))) = _
    refine congrArg (V c main_v12) (funext fun a => Fin.ext ?_)
    match a with
    | ⟨0, _⟩ => show win2_2.index t (0 : Fin 2) * 5000 + 1 * (y 0).val = win2_3.index t (0 : Fin 2) * 5000 + 1 * (y 0).val; omega
    | ⟨1, _⟩ => show win2_2.index t (1 : Fin 2) * 1 + 1 * 0 = 0; omega
  funext j
  exact Cert.Layer.mixRes_of_rows (N := 100000) (D := 64) (M := 5000) (V c main_v34) (V c main_v44) (V c main_v12)
    (iblk2 V c 0 t) (iblk2 V c 1 t) (iblk2 V c 2 t) (fun y => ((cfg2.win 3).blk t).view.emb y) hh ha hd j

/-- An index of the output array is in grid point t's block iff each coordinate is in the block's range on its axis. -/
theorem mem_block (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v45).slice (win2_3.rect t)).set ↔ _
  rw [View.set_slice_whole, Rect.mem_set_unit]
  exact Iff.rfl

/-- The twenty blocks of 5000 rows cover the output array: row r is in the block of grid point r / 5000. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, -, -, e6, e7⟩ := block_rows t
  have ht : t.val = (i 0).val / 5000 := rfl
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the call is the layer of the arrays the call finds. -/
theorem final (c : Dev nD) :
    (dat2 V c).arrAt 3 cfg2.N = Cert.Layer.mixRes (V c main_v34) (V c main_v44) (V c main_v12) :=
  (dat2 V c).arrAt_eq_of_cover 3 _ (fun t _ => flushed_eq V c t) covered

end Cert.KernelIdeal.ThirdLayer

end
-- ==== Proof.FourthLayer.lean ====
/-
  The fourth layer (the third residual one), computed 5000 rows at a time.

  Grid point t reads rows 5000·t … 5000·t + 4999 of the features, of the neighbour sums and of the reciprocal-degree
  column, and writes the residual layer of those rows to the same rows of the output. Entry (p, q) depends on row p of
  each operand only, so the rows a point writes are the residual layer of the whole arrays restricted to those rows;
  the twenty blocks cover all 100000 rows, so the output array is the residual layer of the whole arrays.
-/
import proofs.«182166_j7241314861278_1_alg».proof.Proof.Gen.KernelIdeal.Frame
import proofs.«182166_j7241314861278_1_alg».proof.Proof.Layer
import Idealize.ShloMosaic.Lib.Pipeline.Value

set_option maxRecDepth 16384

noncomputable section

namespace Cert.KernelIdeal.FourthLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a block of rows is the layer of the block. -/
theorem payload (x0 x1 : Vec Ideal S5000x64 .f32) (x2 : Vec Ideal S5000x1 .f32) :
    k3_pay1 (F := Ideal) x0 x1 x2 = Cert.Layer.mixRes x0 x1 x2 := by
  unfold k3_pay1
  dsimp only
  simp only [shapeCast_self]
  exact Cert.Layer.vector_mixRes x0 x1 x2 broadcasts_S5000x1_S5000x64

/-- Every window's block at grid point t is block-row t, block-column 0. -/
theorem block_rows : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What grid point t writes back is block-row t of the layer of the arrays the call finds. -/
theorem flushed_eq (c : Dev nD) (t : Fin cfg3.N) :
    (dat3 V c).flushed 3 t = ((cfg3.win 3).blk t).view.read (Elt Ideal)
      (Cert.Layer.mixRes (V c main_v45) (V c main_v55) (V c main_v12)) := by
  show (cfg3.win 3).cut (grid3.coords t) ((dat3 V c).after 3 t) = _
  rw [after3_3]
  unfold out3_3
  rw [View.canon_unit_zero origin]
  simp only [View.ld_unit_zero (S := S5000x64) origin, View.ld_unit_zero (S := S5000x1) origin]
  rw [payload]
  obtain ⟨e0, e1, e2, e3, e4, e5, e6, e7⟩ := block_rows t
  have hh : ∀ y : S5000x64.Idx, iblk3 V c 0 t y = V c main_v45 (((cfg3.win 3).blk t).view.emb y) := by
    intro y
    show V c main_v45 (((cfg3.win 0).blk t).view.emb y) = _
    refine congrArg (V c main_v45) (funext fun a => Fin.ext ?_)
    match a with
    | ⟨0, _⟩ => show win3_0.index t (0 : Fin 2) * 5000 + 1 * (y 0).val = win3_3.index t (0 : Fin 2) * 5000 + 1 * (y 0).val; omega
    | ⟨1, _⟩ => show win3_0.index t (1 : Fin 2) * 64 + 1 * (y 1).val = win3_3.index t (1 : Fin 2) * 64 + 1 * (y 1).val; omega
  have ha : ∀ y : S5000x64.Idx, iblk3 V c 1 t y = V c main_v55 (((cfg3.win 3).blk t).view.emb y) := by
    intro y
    show V c main_v55 (((cfg3.win 1).blk t).view.emb y) = _
    refine congrArg (V c main_v55) (funext fun a => Fin.ext ?_)
    match a with
    | ⟨0, _⟩ => show win3_1.index t (0 : Fin 2) * 5000 + 1 * (y 0).val = win3_3.index t (0 : Fin 2) * 5000 + 1 * (y 0).val; omega
    | ⟨1, _⟩ => show win3_1.index t (1 : Fin 2) * 64 + 1 * (y 1).val = win3_3.index t (1 : Fin 2) * 64 + 1 * (y 1).val; omega
  have hd : ∀ y : S5000x64.Idx, iblk3 V c 2 t (ix2 (n0 := 5000) (y 0) (0 : Fin 1))
      = V c main_v12 (ix2 (n0 := 100000) ((((cfg3.win 3).blk t).view.emb y) 0) (0 : Fin 1)) := by
    intro y
    show V c main_v12 (((cfg3.win 2).blk t).view.emb (ix2 (n0 := 5000) (y 0) (0 : Fin 1))) = _
    refine congrArg (V c main_v12) (funext fun a => Fin.ext ?_)
    match a with
    | ⟨0, _⟩ => show win3_2.index t (0 : Fin 2) * 5000 + 1 * (y 0).val = win3_3.index t (0 : Fin 2) * 5000 + 1 * (y 0).val; omega
    | ⟨1, _⟩ => show win3_2.index t (1 : Fin 2) * 1 + 1 * 0 = 0; omega
  funext j
  exact Cert.Layer.mixRes_of_rows (N := 100000) (D := 64) (M := 5000) (V c main_v45) (V c main_v55) (V c main_v12)
    (iblk3 V c 0 t) (iblk3 V c 1 t) (iblk3 V c 2 t) (fun y => ((cfg3.win 3).blk t).view.emb y) hh ha hd j

/-- An index of the output array is in grid point t's block iff each coordinate is in the block's range on its axis. -/
theorem mem_block (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v56).slice (win3_3.rect t)).set ↔ _
  rw [View.set_slice_whole, Rect.mem_set_unit]
  exact Iff.rfl

/-- The twenty blocks of 5000 rows cover the output array: row r is in the block of grid point r / 5000. -/
theorem covered (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨-, -, -, -, -, -, e6, e7⟩ := block_rows t
  have ht : t.val = (i 0).val / 5000 := rfl
  refine ⟨t, flush3_3 t, ?_⟩
  rw [mem_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after the call is the layer of the arrays the call finds. -/
theorem final (c : Dev nD) :
    (dat3 V c).arrAt 3 cfg3.N = Cert.Layer.mixRes (V c main_v45) (V c main_v55) (V c main_v12) :=
  (dat3 V c).arrAt_eq_of_cover 3 _ (fun t _ => flushed_eq V c t) covered

end Cert.KernelIdeal.FourthLayer

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibAffine.lean ====
/-
  A dense layer over the extended reals, for any extents: X · Wt + b with X an [M, K] array, Wt the [K, N]
  (already transposed) weights and b a bias vector of length N — entry (p, n) is ∑ k, X (p, k) · Wt (k, n) + b n —,
  optionally floored at a scalar z (the rectifier when z is zero). Two spellings of it on the host are read at an
  entry: the product followed by the bias vector broadcast first to a [1, N] row and then down the rows, and the same
  floored at a broadcast scalar constant. Also the bias vector recast as a [1, N] row, read at an entry.
  No entry needs to be finite: only the definitions of the operations are used, no law of arithmetic.
-/
import proofs.«182166_j7241314861278_1_alg».proof.Proof.LibDenseEntry
import Idealize.ShloMosaic.PureOps.Ideal.Laws
import Idealize.ShloMosaic.Lib.ValueIdx
import Idealize.ShloMosaic.Lib.ValueLayout
import Idealize.ShloMosaic.Lib.Pipeline.Value

noncomputable section

namespace Cert.LibAffine

open Idealize.ShloMosaic Idealize.ShloMosaic.ValueIdx

variable {M K N : ℕ}

/-- X · Wt + b at entry (p, n): ∑ k, X (p, k) · Wt (k, n) + b n. -/
def affine (X : (⟨2, ![M, K]⟩ : Shape).Idx → EReal) (Wt : (⟨2, ![K, N]⟩ : Shape).Idx → EReal)
    (b : (⟨1, ![N]⟩ : Shape).Idx → EReal) : (⟨2, ![M, N]⟩ : Shape).Idx → EReal :=
  fun i => (∑ k : Fin K, X (ix2 (n0 := M) (i 0) k) * Wt (ix2 (n1 := N) k (i 1))) + b (ix1 (n := N) (i 1))

/-- The same floored at `z`: max (X · Wt + b, z) entry by entry. -/
def affineFloor (z : EReal) (X : (⟨2, ![M, K]⟩ : Shape).Idx → EReal) (Wt : (⟨2, ![K, N]⟩ : Shape).Idx → EReal)
    (b : (⟨1, ![N]⟩ : Shape).Idx → EReal) : (⟨2, ![M, N]⟩ : Shape).Idx → EReal :=
  fun i => max (affine X Wt b i) z

theorem affine_ix2 (X : (⟨2, ![M, K]⟩ : Shape).Idx → EReal) (Wt : (⟨2, ![K, N]⟩ : Shape).Idx → EReal)
    (b : (⟨1, ![N]⟩ : Shape).Idx → EReal) (p : Fin M) (n : Fin N) :
    affine X Wt b (ix2 p n) = (∑ k : Fin K, X (ix2 p k) * Wt (ix2 k n)) + b (ix1 n) := rfl

theorem affineFloor_ix2 (z : EReal) (X : (⟨2, ![M, K]⟩ : Shape).Idx → EReal) (Wt : (⟨2, ![K, N]⟩ : Shape).Idx → EReal)
    (b : (⟨1, ![N]⟩ : Shape).Idx → EReal) (p : Fin M) (n : Fin N) :
    affineFloor z X Wt b (ix2 p n) = max ((∑ k : Fin K, X (ix2 p k) * Wt (ix2 k n)) + b (ix1 n)) z := rfl

/-- The layer with its bias given as a [1, N] row: entry (p, n) is ∑ k, X (p, k) · Wt (k, n) + r (0, n). -/
def rowAffine (X : (⟨2, ![M, K]⟩ : Shape).Idx → EReal) (Wt : (⟨2, ![K, N]⟩ : Shape).Idx → EReal)
    (r : (⟨2, ![1, N]⟩ : Shape).Idx → EReal) : (⟨2, ![M, N]⟩ : Shape).Idx → EReal :=
  fun i => (∑ k : Fin K, X (ix2 (n0 := M) (i 0) k) * Wt (ix2 (n1 := N) k (i 1))) + r (ix2 (0 : Fin 1) (n1 := N) (i 1))

/-- The same floored at `z`. -/
def rowAffineFloor (z : EReal) (X : (⟨2, ![M, K]⟩ : Shape).Idx → EReal) (Wt : (⟨2, ![K, N]⟩ : Shape).Idx → EReal)
    (r : (⟨2, ![1, N]⟩ : Shape).Idx → EReal) : (⟨2, ![M, N]⟩ : Shape).Idx → EReal :=
  fun i => max (rowAffine X Wt r i) z

theorem rowAffine_ix2 (X : (⟨2, ![M, K]⟩ : Shape).Idx → EReal) (Wt : (⟨2, ![K, N]⟩ : Shape).Idx → EReal)
    (r : (⟨2, ![1, N]⟩ : Shape).Idx → EReal) (p : Fin M) (n : Fin N) :
    rowAffine X Wt r (ix2 p n) = (∑ k : Fin K, X (ix2 p k) * Wt (ix2 k n)) + r (ix2 (0 : Fin 1) n) := rfl

theorem rowAffineFloor_ix2 (z : EReal) (X : (⟨2, ![M, K]⟩ : Shape).Idx → EReal) (Wt : (⟨2, ![K, N]⟩ : Shape).Idx → EReal)
    (r : (⟨2, ![1, N]⟩ : Shape).Idx → EReal) (p : Fin M) (n : Fin N) :
    rowAffineFloor z X Wt r (ix2 p n) = max ((∑ k : Fin K, X (ix2 p k) * Wt (ix2 k n)) + r (ix2 (0 : Fin 1) n)) z := rfl

/-- A vector of length N broadcast to a [1, N] row (its one axis sent to axis 1) reads, at (0, n), the vector at n. -/
theorem row_of_vec_apply {α : Type} (b : (⟨1, ![N]⟩ : Shape).Idx → α)
    (h : (⟨1, ![N]⟩ : Shape).BroadcastsInDim ⟨2, ![1, N]⟩ ![1]) (u : Fin 1) (n : Fin N) :
    broadcastInDim ⟨2, ![1, N]⟩ ![1] h b (ix2 u n) = b (ix1 n) :=
  broadcastInDim_apply _ h b (ix2 u n) (ix1 n) (fun a => match a with
    | ⟨0, _⟩ => by
        show n.val = if N = 1 then 0 else n.val
        split
        · have := n.isLt; omega
        · rfl)

/-- A [1, N] row broadcast down M rows reads, at (p, n), the row at (0, n). -/
theorem rows_of_row_apply {α : Type} (r : (⟨2, ![1, N]⟩ : Shape).Idx → α)
    (h : (⟨2, ![1, N]⟩ : Shape).BroadcastsInDim ⟨2, ![M, N]⟩ ![0, 1]) (p : Fin M) (n : Fin N) :
    broadcastInDim ⟨2, ![M, N]⟩ ![0, 1] h r (ix2 p n) = r (ix2 (0 : Fin 1) n) :=
  broadcastInDim_apply _ h r (ix2 p n) (ix2 (0 : Fin 1) n) (fun a => match a with
    | ⟨0, _⟩ => by
        show 0 = if (1 : ℕ) = 1 then 0 else p.val
        rw [if_pos rfl]
    | ⟨1, _⟩ => by
        show n.val = if N = 1 then 0 else n.val
        split
        · have := n.isLt; omega
        · rfl)

/-- A vector of length N recast as a [1, N] row reads, at (0, n), the vector at n. -/
theorem row_cast_apply {α : Type} (b : (⟨1, ![N]⟩ : Shape).Idx → α)
    (h : (⟨1, ![N]⟩ : Shape).ShapeCasts ⟨2, ![1, N]⟩) (u : Fin 1) (n : Fin N) :
    shapeCast ⟨2, ![1, N]⟩ b h (ix2 u n) = b (ix1 n) :=
  shapeCast_apply b h _ _ (by
    rw [Shape.rowMajor_val_two, Shape.rowMajor_val_one]
    show n.val = u.val * N + n.val
    have := u.isLt
    have hu : u.val = 0 := by omega
    rw [hu]; omega)

/-- With the bias row a recast vector, the row form is `affine` of the vector. -/
theorem rowAffine_cast (X : (⟨2, ![M, K]⟩ : Shape).Idx → EReal) (Wt : (⟨2, ![K, N]⟩ : Shape).Idx → EReal)
    (b : (⟨1, ![N]⟩ : Shape).Idx → EReal) (h : (⟨1, ![N]⟩ : Shape).ShapeCasts ⟨2, ![1, N]⟩) :
    rowAffine X Wt (shapeCast ⟨2, ![1, N]⟩ b h) = affine X Wt b := by
  funext i
  obtain ⟨p, n, rfl⟩ : ∃ (p : Fin M) (n : Fin N), i = ix2 p n := ⟨i 0, i 1, eq_ix2 i⟩
  rw [rowAffine_ix2, affine_ix2, row_cast_apply]

/-- The same for the floored layer. -/
theorem rowAffineFloor_cast (z : EReal) (X : (⟨2, ![M, K]⟩ : Shape).Idx → EReal) (Wt : (⟨2, ![K, N]⟩ : Shape).Idx → EReal)
    (b : (⟨1, ![N]⟩ : Shape).Idx → EReal) (h : (⟨1, ![N]⟩ : Shape).ShapeCasts ⟨2, ![1, N]⟩) :
    rowAffineFloor z X Wt (shapeCast ⟨2, ![1, N]⟩ b h) = affineFloor z X Wt b := by
  funext i
  show max (rowAffine X Wt (shapeCast ⟨2, ![1, N]⟩ b h) i) z = max (affine X Wt b i) z
  rw [rowAffine_cast]

/-- The host's dense layer — the product, plus the bias vector made a row and broadcast down the rows — is `affine`. -/
theorem host_affine (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (X : FVec Ideal ⟨2, ![M, K]⟩ .f32) (Wt : FVec Ideal ⟨2, ![K, N]⟩ .f32) (b : FVec Ideal ⟨1, ![N]⟩ .f32)
    (hr : (⟨1, ![N]⟩ : Shape).BroadcastsInDim ⟨2, ![1, N]⟩ ![1])
    (hb : (⟨2, ![1, N]⟩ : Shape).BroadcastsInDim ⟨2, ![M, N]⟩ ![0, 1]) :
    addf (Host.dotGeneral (F := Ideal) d prec X Wt) (broadcastInDim ⟨2, ![M, N]⟩ ![0, 1] hb (broadcastInDim ⟨2, ![1, N]⟩ ![1] hr b))
      = affine X Wt b := by
  funext i
  obtain ⟨p, n, rfl⟩ : ∃ (p : Fin M) (n : Fin N), i = ix2 p n := ⟨i 0, i 1, eq_ix2 i⟩
  rw [affine_ix2]
  show Host.dotGeneral (F := Ideal) d prec X Wt (ix2 p n) + broadcastInDim ⟨2, ![M, N]⟩ ![0, 1] hb (broadcastInDim ⟨2, ![1, N]⟩ ![1] hr b) (ix2 p n) = _
  rw [rows_of_row_apply, row_of_vec_apply]
  simp only [Host.dotGeneral]
  rw [Cert.LibDenseEntry.dotGeneral_plain_apply d h1 h2 h3 h4 h5 h6]

/-- The same floored at a broadcast scalar constant is `affineFloor` at that constant's value. -/
theorem host_affineFloor (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (X : FVec Ideal ⟨2, ![M, K]⟩ .f32) (Wt : FVec Ideal ⟨2, ![K, N]⟩ .f32) (b : FVec Ideal ⟨1, ![N]⟩ .f32)
    (hr : (⟨1, ![N]⟩ : Shape).BroadcastsInDim ⟨2, ![1, N]⟩ ![1])
    (hb : (⟨2, ![1, N]⟩ : Shape).BroadcastsInDim ⟨2, ![M, N]⟩ ![0, 1])
    (hz : (⟨0, ![]⟩ : Shape).BroadcastsInDim ⟨2, ![M, N]⟩ ![]) (zb : BitVec 32) :
    maximumf (addf (Host.dotGeneral (F := Ideal) d prec X Wt) (broadcastInDim ⟨2, ![M, N]⟩ ![0, 1] hb (broadcastInDim ⟨2, ![1, N]⟩ ![1] hr b)))
        (broadcastInDim ⟨2, ![M, N]⟩ ![] hz (constant (F := Ideal) ⟨0, ![]⟩ .f32 zb))
      = affineFloor (Ideal.ofBits .f32 zb) X Wt b := by
  rw [host_affine d h1 h2 h3 h4 h5 h6]
  funext i
  show max (affine X Wt b i) (broadcastInDim ⟨2, ![M, N]⟩ ![] hz (constant (F := Ideal) ⟨0, ![]⟩ .f32 zb) i) = max (affine X Wt b i) (Ideal.ofBits .f32 zb)
  rw [broadcastInDim_apply _ hz (constant (F := Ideal) ⟨0, ![]⟩ .f32 zb) i ix0 (fun a => a.elim0)]
  rfl

end Cert.LibAffine

end
-- ==== Proof.LibRowBlock.lean ====
/-
  A dense layer X · Wt + b restricted to a block of rows.

  Entry (p, n) of X · Wt + b is ∑ k, X (p, k) · Wt (k, n) + b n: it reads row p of X, column n of Wt and b n, nothing
  else. So if a block of M' rows of X is laid along a map e of output indices that keeps the column — the block's row
  j₀ is X's row (e j)₀ — then the layer of the block (with the same weights and bias) at j is the layer of the whole
  array at e j.
-/
import proofs.«182166_j7241314861278_1_alg».proof.Proof.LibAffine

noncomputable section

namespace Cert.LibRowBlock

open Idealize.ShloMosaic Idealize.ShloMosaic.ValueIdx Cert.LibAffine

variable {M M' K N : ℕ}

/-- The layer of a block of rows is the layer of the array at those rows. -/
theorem affine_of_rows (X : (⟨2, ![M, K]⟩ : Shape).Idx → EReal) (Wt : (⟨2, ![K, N]⟩ : Shape).Idx → EReal)
    (b : (⟨1, ![N]⟩ : Shape).Idx → EReal)
    (bx : (⟨2, ![M', K]⟩ : Shape).Idx → EReal) (bw : (⟨2, ![K, N]⟩ : Shape).Idx → EReal) (bb : (⟨1, ![N]⟩ : Shape).Idx → EReal)
    (e : (⟨2, ![M', N]⟩ : Shape).Idx → (⟨2, ![M, N]⟩ : Shape).Idx)
    (hx : ∀ (j : (⟨2, ![M', N]⟩ : Shape).Idx) (k : Fin K), bx (ix2 (n0 := M') (j 0) k) = X (ix2 (n0 := M) (e j 0) k))
    (hw : bw = Wt) (hb : bb = b)
    (he : ∀ j : (⟨2, ![M', N]⟩ : Shape).Idx, (e j 1 : Fin N) = (j 1 : Fin N))
    (j : (⟨2, ![M', N]⟩ : Shape).Idx) : affine bx bw bb j = affine X Wt b (e j) := by
  subst hw hb
  unfold affine
  rw [he j]
  exact congrArg (· + bb (ix1 (n := N) (j 1))) (Finset.sum_congr rfl fun k _ => by rw [hx j k])

end Cert.LibRowBlock

end
-- ==== Proof.OutputLayer.lean ====
/-
  The output layer, computed 5000 rows at a time: the array it leaves is features · weights + bias of the whole arrays.

  Grid point t reads rows 5000·t … 5000·t + 4999 of the features and the whole [64, 128] weights and length-128 bias,
  multiplies the rows by the weights (the operands narrowed to a shorter float format first, which changes nothing
  over the extended reals; the product accumulated into zero) and adds the bias along every row. Entry (p, n) of
  features · weights + bias reads row p of the features only, so what a point writes is that function of the whole
  arrays at its rows; the twenty blocks cover all 100000 rows.
-/
import proofs.«182166_j7241314861278_1_alg».proof.Proof.Gen.KernelIdeal.Frame
import proofs.«182166_j7241314861278_1_alg».proof.Proof.LibAffine
import proofs.«182166_j7241314861278_1_alg».proof.Proof.LibRowBlock
import Idealize.ShloMosaic.Lib.Pipeline.Value
import Idealize.ShloMosaic.Lib.ValueLayout

set_option maxRecDepth 16384

noncomputable section

namespace Cert.KernelIdeal.OutputLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl
theorem origin1 : (![0] : Fin 1 → Nat) = fun _ => 0 := funext fun a => by fin_cases a; rfl

/-- The body's arithmetic on a block of rows: the rows times the weights, plus the bias. -/
theorem payload (x0 : Vec Ideal S5000x64 .f32) (x1 : Vec Ideal S64x128 .f32) (x2 : Vec Ideal S128 .f32) :
    k4_pay1 (F := Ideal) x0 x1 x2 = Cert.LibAffine.affine x0 x1 x2 := by
  unfold k4_pay1
  dsimp only
  simp only [shapeCast_self]
  funext i
  obtain ⟨p, n, rfl⟩ : ∃ (p : Fin 5000) (n : Fin 128), i = ix2 p n := ⟨i 0, i 1, eq_ix2 i⟩
  rw [Cert.LibAffine.affine_ix2]
  rw [addf_apply, broadcastTo_1b_ab_apply, shapeCast_a_1a_apply]
  refine congrArg (· + x2 (ix1 n)) ?_
  exact Cert.LibDenseEntry.matmul_plain_zero_apply dot_S5000x64_S64x128_S5000x128_1_0_0_1_n_n rfl rfl rfl rfl rfl rfl none
    (truncf FTy.bf16 x0 bitsLt_bf16_f32) (truncf FTy.bf16 x1 bitsLt_bf16_f32) p n

/-- The feature and output windows' block at grid point t is block-row t; the weights and the bias are one block. -/
theorem block_rows : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- What grid point t writes back is block-row t of features · weights + bias of the arrays the call finds. -/
theorem flushed_eq (c : Dev nD) (t : Fin cfg4.N) :
    (dat4 V c).flushed 3 t = ((cfg4.win 3).blk t).view.read (Elt Ideal)
      (Cert.LibAffine.affine (V c main_v56) (V c main_arg2) (V c main_arg3)) := by
  show (cfg4.win 3).cut (grid4.coords t) ((dat4 V c).after 3 t) = _
  rw [after4_3]
  unfold out4_3
  rw [View.canon_unit_zero origin]
  simp only [View.ld_unit_zero (S := S5000x64) origin, View.ld_unit_zero (S := S64x128) origin, View.ld_unit_zero (S := S128) origin1]
  rw [payload]
  obtain ⟨e0, e1, e2, e3, e4, e5, e6⟩ := block_rows t
  have hx : ∀ (y : S5000x128.Idx) (k : Fin 64), iblk4 V c 0 t (ix2 (n0 := 5000) (y 0) k)
      = V c main_v56 (ix2 (n0 := 100000) ((((cfg4.win 3).blk t).view.emb y) 0) k) := by
    intro y k
    show V c main_v56 (((cfg4.win 0).blk t).view.emb (ix2 (n0 := 5000) (y 0) k)) = _
    refine congrArg (V c main_v56) (funext fun a => Fin.ext ?_)
    match a with
    | ⟨0, _⟩ => show win4_0.index t (0 : Fin 2) * 5000 + 1 * (y 0).val = win4_3.index t (0 : Fin 2) * 5000 + 1 * (y 0).val; omega
    | ⟨1, _⟩ => show win4_0.index t (1 : Fin 2) * 64 + 1 * k.val = k.val; omega
  have hw : iblk4 V c 1 t = V c main_arg2 := by
    funext y
    show V c main_arg2 (((cfg4.win 1).blk t).view.emb y) = V c main_arg2 y
    refine congrArg (V c main_arg2) (funext fun a => Fin.ext ?_)
    match a with
    | ⟨0, _⟩ => show win4_1.index t (0 : Fin 2) * 64 + 1 * (y 0).val = (y 0).val; omega
    | ⟨1, _⟩ => show win4_1.index t (1 : Fin 2) * 128 + 1 * (y 1).val = (y 1).val; omega
  have hb : iblk4 V c 2 t = V c main_arg3 := by
    funext y
    show V c main_arg3 (((cfg4.win 2).blk t).view.emb y) = V c main_arg3 y
    refine congrArg (V c main_arg3) (funext fun a => Fin.ext ?_)
    match a with
    | ⟨0, _⟩ => show win4_2.index t (0 : Fin 1) * 128 + 1 * (y 0).val = (y 0).val; omega
  have he : ∀ y : S5000x128.Idx, ((((cfg4.win 3).blk t).view.emb y) 1 : Fin 128) = (y 1 : Fin 128) := by
    intro y
    refine Fin.ext ?_
    show win4_3.index t (1 : Fin 2) * 128 + 1 * (y 1).val = (y 1).val
    omega
  funext j
  exact Cert.LibRowBlock.affine_of_rows (M := 100000) (M' := 5000) (K := 64) (N := 128)
    (V c main_v56) (V c main_arg2) (V c main_arg3) (iblk4 V c 0 t) (iblk4 V c 1 t) (iblk4 V c 2 t)
    (fun y => ((cfg4.win 3).blk t).view.emb y) hx hw hb he j

/-- An index of the output array is in grid point t's block iff each coordinate is in the block's range on its axis. -/
theorem mem_block (t : Fin cfg4.N) (i : S100000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v57).slice (win4_3.rect t)).set ↔ _
  rw [View.set_slice_whole, Rect.mem_set_unit]
  exact Iff.rfl

/-- The twenty blocks of 5000 rows cover the output array: row r is in the block of grid point r / 5000. -/
theorem covered (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, -, e5, e6⟩ := block_rows t
  have ht : t.val = (i 0).val / 5000 := rfl
  refine ⟨t, flush4_3 t, ?_⟩
  rw [mem_block]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The output array after the call is features · weights + bias of the arrays the call finds. -/
theorem final (c : Dev nD) :
    (dat4 V c).arrAt 3 cfg4.N = Cert.LibAffine.affine (V c main_v56) (V c main_arg2) (V c main_arg3) :=
  (dat4 V c).arrAt_eq_of_cover 3 _ (fun t _ => flushed_eq V c t) covered

end Cert.KernelIdeal.OutputLayer

end
-- ==== Proof.Graph.lean ====
/-
  The graph side of the network, as functions of the edge list, and what each stretch of array operations between
  two calls leaves.

  The edge list is a [2, E] integer array: row 0 the source node of each edge, row 1 its target. From it:
  the sources and the targets as length-E vectors; the reciprocal degrees — count the edges into each node (a
  scatter-add of ones at the targets), floor the count at 1, take 1 / that, kept as an [N, 1] column —; and the
  neighbour sum of a feature array h: gather h's row at each edge's source (a negative source index wrapped by N
  first), then add it into the row of the edge's target (a scatter-add into zeros). The neighbour sum is the same
  composition of array operations every time it is taken, so it is named once here and never opened: which rows a
  gather reads and where a scatter adds them plays no part in comparing the two programs.
-/
import proofs.«182166_j7241314861278_1_alg».proof.Proof.Gen.KernelIdeal.Launch
import Idealize.ShloMosaic.Lib.StableHlo.Run

set_option maxRecDepth 16384

noncomputable section

namespace Cert.KernelIdeal.Graph

open Cert.KernelIdeal Cert.KernelIdeal.Gen Idealize.ShloMosaic Idealize.ShloMosaic.TcCoe Idealize.SL.Sem
open Idealize.ShloMosaic.StableHlo

variable {F : FTy → Type} [FloatOps F]

/-- The edges' source nodes: row 0 of the edge list, as a vector. -/
def sources (ei : Vec F S2x1600000 .i32) : Vec F S1600000 .i32 :=
  shapeCast S1600000 (extractStridedSlice S1x1600000 ![0, 0] ei slices_S2x1600000_S1x1600000_0_0) shapeCasts_S1x1600000_S1600000

/-- The edges' target nodes: row 1 of the edge list, as a vector. -/
def targets (ei : Vec F S2x1600000 .i32) : Vec F S1600000 .i32 :=
  shapeCast S1600000 (extractStridedSlice S1x1600000 ![1, 0] ei slices_S2x1600000_S1x1600000_1_0) shapeCasts_S1x1600000_S1600000

/-- The reciprocal degrees as a column: 1 / max(number of edges into the node, 1). -/
def recipDegree (tgt : Vec F S1600000 .i32) : Vec F S100000x1 .f32 :=
  broadcastInDim S100000x1 ![0] bcast_S100000_S100000x1_0
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 tgt)
          (broadcastInDim S1600000 ![] bcast_S_S1600000 (constant S_ .f32 0x3F800000#32)))
        (broadcastInDim S100000 ![] bcast_S_S100000 (constant S_ .f32 0x3F800000#32))))

/-- The neighbour sum of h: each edge carries h's row at its source into the row of its target. -/
def neighbourSum (h : Vec F S100000x64 .f32) (src tgt : Vec F S1600000 .i32) : Vec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 tgt)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## The host operations before the first call -/

theorem stretch0_sources (U : Valuation τ sig (Elt F)) :
    StableHlo.after (hostOps0 (F := F)) U (Proc.devRef .tc main_v1) = sources (U (Proc.devRef .tc main_arg1)) := by
  after_results_simp
  rfl
theorem stretch0_targets (U : Valuation τ sig (Elt F)) :
    StableHlo.after (hostOps0 (F := F)) U (Proc.devRef .tc main_v3) = targets (U (Proc.devRef .tc main_arg1)) := by
  after_results_simp
  rfl
theorem stretch0_recip (U : Valuation τ sig (Elt F)) :
    StableHlo.after (hostOps0 (F := F)) U (Proc.devRef .tc main_v12) = recipDegree (targets (U (Proc.devRef .tc main_arg1))) := by
  after_results_simp
  rfl
theorem stretch0_sum (U : Valuation τ sig (Elt F)) :
    StableHlo.after (hostOps0 (F := F)) U (Proc.devRef .tc main_v22)
      = neighbourSum (U (Proc.devRef .tc main_arg0)) (sources (U (Proc.devRef .tc main_arg1))) (targets (U (Proc.devRef .tc main_arg1))) := by
  after_results_simp
  rfl
theorem stretch0_features (U : Valuation τ sig (Elt F)) :
    StableHlo.after (hostOps0 (F := F)) U (Proc.devRef .tc main_arg0) = U (Proc.devRef .tc main_arg0) := by
  after_results_simp
theorem stretch0_weights (U : Valuation τ sig (Elt F)) :
    StableHlo.after (hostOps0 (F := F)) U (Proc.devRef .tc main_arg2) = U (Proc.devRef .tc main_arg2) := by
  after_results_simp
theorem stretch0_bias (U : Valuation τ sig (Elt F)) :
    StableHlo.after (hostOps0 (F := F)) U (Proc.devRef .tc main_arg3) = U (Proc.devRef .tc main_arg3) := by
  after_results_simp

/-! ## The host operations before call 1 -/

/-- They leave the neighbour sum of the features call 0 wrote. -/
theorem stretch1_sum (U : Valuation τ sig (Elt F)) :
    StableHlo.after (hostOps1 (F := F)) U (Proc.devRef .tc main_v33)
      = neighbourSum (U (Proc.devRef .tc main_v23)) (U (Proc.devRef .tc main_v1)) (U (Proc.devRef .tc main_v3)) := by
  after_results_simp
  rfl
/-- They write none of the arrays still to be read. -/
theorem stretch1_features (U : Valuation τ sig (Elt F)) :
    StableHlo.after (hostOps1 (F := F)) U (Proc.devRef .tc main_v23) = U (Proc.devRef .tc main_v23) := by
  after_results_simp
theorem stretch1_sources (U : Valuation τ sig (Elt F)) :
    StableHlo.after (hostOps1 (F := F)) U (Proc.devRef .tc main_v1) = U (Proc.devRef .tc main_v1) := by
  after_results_simp
theorem stretch1_targets (U : Valuation τ sig (Elt F)) :
    StableHlo.after (hostOps1 (F := F)) U (Proc.devRef .tc main_v3) = U (Proc.devRef .tc main_v3) := by
  after_results_simp
theorem stretch1_recip (U : Valuation τ sig (Elt F)) :
    StableHlo.after (hostOps1 (F := F)) U (Proc.devRef .tc main_v12) = U (Proc.devRef .tc main_v12) := by
  after_results_simp
theorem stretch1_weights (U : Valuation τ sig (Elt F)) :
    StableHlo.after (hostOps1 (F := F)) U (Proc.devRef .tc main_arg2) = U (Proc.devRef .tc main_arg2) := by
  after_results_simp
theorem stretch1_bias (U : Valuation τ sig (Elt F)) :
    StableHlo.after (hostOps1 (F := F)) U (Proc.devRef .tc main_arg3) = U (Proc.devRef .tc main_arg3) := by
  after_results_simp

/-! ## The host operations before call 2 -/

/-- They leave the neighbour sum of the features call 1 wrote. -/
theorem stretch2_sum (U : Valuation τ sig (Elt F)) :
    StableHlo.after (hostOps2 (F := F)) U (Proc.devRef .tc main_v44)
      = neighbourSum (U (Proc.devRef .tc main_v34)) (U (Proc.devRef .tc main_v1)) (U (Proc.devRef .tc main_v3)) := by
  after_results_simp
  rfl
/-- They write none of the arrays still to be read. -/
theorem stretch2_features (U : Valuation τ sig (Elt F)) :
    StableHlo.after (hostOps2 (F := F)) U (Proc.devRef .tc main_v34) = U (Proc.devRef .tc main_v34) := by
  after_results_simp
theorem stretch2_sources (U : Valuation τ sig (Elt F)) :
    StableHlo.after (hostOps2 (F := F)) U (Proc.devRef .tc main_v1) = U (Proc.devRef .tc main_v1) := by
  after_results_simp
theorem stretch2_targets (U : Valuation τ sig (Elt F)) :
    StableHlo.after (hostOps2 (F := F)) U (Proc.devRef .tc main_v3) = U (Proc.devRef .tc main_v3) := by
  after_results_simp
theorem stretch2_recip (U : Valuation τ sig (Elt F)) :
    StableHlo.after (hostOps2 (F := F)) U (Proc.devRef .tc main_v12) = U (Proc.devRef .tc main_v12) := by
  after_results_simp
theorem stretch2_weights (U : Valuation τ sig (Elt F)) :
    StableHlo.after (hostOps2 (F := F)) U (Proc.devRef .tc main_arg2) = U (Proc.devRef .tc main_arg2) := by
  after_results_simp
theorem stretch2_bias (U : Valuation τ sig (Elt F)) :
    StableHlo.after (hostOps2 (F := F)) U (Proc.devRef .tc main_arg3) = U (Proc.devRef .tc main_arg3) := by
  after_results_simp

/-! ## The host operations before call 3 -/

/-- They leave the neighbour sum of the features call 2 wrote. -/
theorem stretch3_sum (U : Valuation τ sig (Elt F)) :
    StableHlo.after (hostOps3 (F := F)) U (Proc.devRef .tc main_v55)
      = neighbourSum (U (Proc.devRef .tc main_v45)) (U (Proc.devRef .tc main_v1)) (U (Proc.devRef .tc main_v3)) := by
  after_results_simp
  rfl
/-- They write none of the arrays still to be read. -/
theorem stretch3_features (U : Valuation τ sig (Elt F)) :
    StableHlo.after (hostOps3 (F := F)) U (Proc.devRef .tc main_v45) = U (Proc.devRef .tc main_v45) := by
  after_results_simp
theorem stretch3_sources (U : Valuation τ sig (Elt F)) :
    StableHlo.after (hostOps3 (F := F)) U (Proc.devRef .tc main_v1) = U (Proc.devRef .tc main_v1) := by
  after_results_simp
theorem stretch3_targets (U : Valuation τ sig (Elt F)) :
    StableHlo.after (hostOps3 (F := F)) U (Proc.devRef .tc main_v3) = U (Proc.devRef .tc main_v3) := by
  after_results_simp
theorem stretch3_recip (U : Valuation τ sig (Elt F)) :
    StableHlo.after (hostOps3 (F := F)) U (Proc.devRef .tc main_v12) = U (Proc.devRef .tc main_v12) := by
  after_results_simp
theorem stretch3_weights (U : Valuation τ sig (Elt F)) :
    StableHlo.after (hostOps3 (F := F)) U (Proc.devRef .tc main_arg2) = U (Proc.devRef .tc main_arg2) := by
  after_results_simp
theorem stretch3_bias (U : Valuation τ sig (Elt F)) :
    StableHlo.after (hostOps3 (F := F)) U (Proc.devRef .tc main_arg3) = U (Proc.devRef .tc main_arg3) := by
  after_results_simp

end Cert.KernelIdeal.Graph

end
-- ==== Proof.Network.lean ====
/-
  The whole network as one function of its four arguments, over the extended reals.

  With x the [100000, 64] node features, ei the [2, 1600000] edge list, w the [64, 128] weights and b the length-128 bias:
  the first layer is  h₀ = max(½ · (x + S(x) · r), 0),  each of the next three  hₖ₊₁ = hₖ + max(½ · (hₖ + S(hₖ) · r), 0),
  where S is the neighbour sum along the edges and r the column of reciprocal degrees, and the result is  h₃ · w + b.
-/
import proofs.«182166_j7241314861278_1_alg».proof.Proof.Graph
import proofs.«182166_j7241314861278_1_alg».proof.Proof.Layer
import proofs.«182166_j7241314861278_1_alg».proof.Proof.LibAffine

noncomputable section

namespace Cert.KernelIdeal.Network

open Cert.KernelIdeal Idealize.ShloMosaic Cert.KernelIdeal.Graph

/-- The first layer's features. -/
def first (x : Vec Ideal S100000x64 .f32) (ei : Vec Ideal S2x1600000 .i32) : Vec Ideal S100000x64 .f32 :=
  Cert.Layer.mix x (neighbourSum x (sources ei) (targets ei)) (recipDegree (targets ei))

/-- One residual layer. -/
def next (h : Vec Ideal S100000x64 .f32) (ei : Vec Ideal S2x1600000 .i32) : Vec Ideal S100000x64 .f32 :=
  Cert.Layer.mixRes h (neighbourSum h (sources ei) (targets ei)) (recipDegree (targets ei))

/-- The network: four layers, then features · weights + bias. -/
def net (x : Vec Ideal S100000x64 .f32) (ei : Vec Ideal S2x1600000 .i32) (w : Vec Ideal S64x128 .f32) (b : Vec Ideal S128 .f32) :
    Vec Ideal S100000x128 .f32 :=
  Cert.LibAffine.affine (next (next (next (first x ei) ei) ei) ei) w b

end Cert.KernelIdeal.Network

end
-- ==== Proof.Fold.lean ====
/-
  The contents of the result buffer after the run, as the network of the launch arrays.

  The run's buffer contents are a fold through nine segments. Walk it once, keeping at each boundary what is still to
  be read: the current features, their neighbour sum when one has just been taken, the edge vectors while a later
  neighbour sum needs them, the reciprocal degrees while a later layer needs them, the weights and the bias. A stretch
  of array operations writes the new neighbour sum and none of the others; a call writes its output array — the layer
  of the features, the sum and the reciprocal degrees it finds — and none of the others. After the fifth call the
  result buffer holds the last features times the weights plus the bias.
-/
import proofs.«182166_j7241314861278_1_alg».proof.Proof.Gen.KernelIdeal.Frame
import proofs.«182166_j7241314861278_1_alg».proof.Proof.FirstLayer
import proofs.«182166_j7241314861278_1_alg».proof.Proof.SecondLayer
import proofs.«182166_j7241314861278_1_alg».proof.Proof.ThirdLayer
import proofs.«182166_j7241314861278_1_alg».proof.Proof.FourthLayer
import proofs.«182166_j7241314861278_1_alg».proof.Proof.OutputLayer
import proofs.«182166_j7241314861278_1_alg».proof.Proof.Graph
import proofs.«182166_j7241314861278_1_alg».proof.Proof.Network

set_option maxRecDepth 16384

noncomputable section

namespace Cert.KernelIdeal.Fold

open Cert.KernelIdeal Cert.KernelIdeal.Gen Idealize.ShloMosaic Idealize.ShloMosaic.TcCoe Idealize.SL.Sem
open Cert.KernelIdeal.Graph Cert.KernelIdeal.Network

variable (m : (ℓ : Loc nD τ sig) → Buf (Elt Ideal) ℓ) (ρ : Dev nD → PrngReg) (c : Dev nD)

/-! ## After the operations before the first call -/

theorem at1_features : W1 m ρ c (Proc.devRef .tc main_arg0) = m ((c.tc : Thread nD τ).loc main_arg0) := stretch0_features (W0 m ρ c)
theorem at1_sources : W1 m ρ c (Proc.devRef .tc main_v1) = sources (m ((c.tc : Thread nD τ).loc main_arg1)) := stretch0_sources (W0 m ρ c)
theorem at1_targets : W1 m ρ c (Proc.devRef .tc main_v3) = targets (m ((c.tc : Thread nD τ).loc main_arg1)) := stretch0_targets (W0 m ρ c)
theorem at1_recip : W1 m ρ c (Proc.devRef .tc main_v12) = recipDegree (targets (m ((c.tc : Thread nD τ).loc main_arg1))) := stretch0_recip (W0 m ρ c)
theorem at1_sum : W1 m ρ c (Proc.devRef .tc main_v22) = neighbourSum (m ((c.tc : Thread nD τ).loc main_arg0)) (sources (m ((c.tc : Thread nD τ).loc main_arg1))) (targets (m ((c.tc : Thread nD τ).loc main_arg1))) := stretch0_sum (W0 m ρ c)
theorem at1_weights : W1 m ρ c (Proc.devRef .tc main_arg2) = m ((c.tc : Thread nD τ).loc main_arg2) := stretch0_weights (W0 m ρ c)
theorem at1_bias : W1 m ρ c (Proc.devRef .tc main_arg3) = m ((c.tc : Thread nD τ).loc main_arg3) := stretch0_bias (W0 m ρ c)

/-! ## After call 0 -/

theorem at2_features : W2 m ρ c (Proc.devRef .tc main_v23) = first (m ((c.tc : Thread nD τ).loc main_arg0)) (m ((c.tc : Thread nD τ).loc main_arg1)) :=
  (W2_arr m ρ c 3).trans ((FirstLayer.final (V1 m ρ) c).trans (by
    show Cert.Layer.mix (W1 m ρ c (Proc.devRef .tc main_arg0)) (W1 m ρ c (Proc.devRef .tc main_v22)) (W1 m ρ c (Proc.devRef .tc main_v12)) = _
    rw [at1_features m ρ c, at1_sum m ρ c, at1_recip m ρ c]
    rfl))
theorem at2_sources : W2 m ρ c (Proc.devRef .tc main_v1) = sources (m ((c.tc : Thread nD τ).loc main_arg1)) :=
  (W2_of_ne m ρ c main_v1 (by decide)).trans (at1_sources m ρ c)
theorem at2_targets : W2 m ρ c (Proc.devRef .tc main_v3) = targets (m ((c.tc : Thread nD τ).loc main_arg1)) :=
  (W2_of_ne m ρ c main_v3 (by decide)).trans (at1_targets m ρ c)
theorem at2_recip : W2 m ρ c (Proc.devRef .tc main_v12) = recipDegree (targets (m ((c.tc : Thread nD τ).loc main_arg1))) :=
  ((W2_arr m ρ c 2).trans (((dat0 (V1 m ρ) c).arrAt_in 2 rfl _).trans (A_eq0 (V1 m ρ) c 2))).trans (at1_recip m ρ c)
theorem at2_weights : W2 m ρ c (Proc.devRef .tc main_arg2) = m ((c.tc : Thread nD τ).loc main_arg2) :=
  (W2_of_ne m ρ c main_arg2 (by decide)).trans (at1_weights m ρ c)
theorem at2_bias : W2 m ρ c (Proc.devRef .tc main_arg3) = m ((c.tc : Thread nD τ).loc main_arg3) :=
  (W2_of_ne m ρ c main_arg3 (by decide)).trans (at1_bias m ρ c)

/-! ## After the operations before call 1 -/

theorem at3_sum : W3 m ρ c (Proc.devRef .tc main_v33) = neighbourSum (first (m ((c.tc : Thread nD τ).loc main_arg0)) (m ((c.tc : Thread nD τ).loc main_arg1))) (sources (m ((c.tc : Thread nD τ).loc main_arg1))) (targets (m ((c.tc : Thread nD τ).loc main_arg1))) :=
  (stretch1_sum (W2 m ρ c)).trans (by rw [at2_features m ρ c, at2_sources m ρ c, at2_targets m ρ c])
theorem at3_features : W3 m ρ c (Proc.devRef .tc main_v23) = first (m ((c.tc : Thread nD τ).loc main_arg0)) (m ((c.tc : Thread nD τ).loc main_arg1)) :=
  (stretch1_features (W2 m ρ c)).trans (at2_features m ρ c)
theorem at3_sources : W3 m ρ c (Proc.devRef .tc main_v1) = sources (m ((c.tc : Thread nD τ).loc main_arg1)) :=
  (stretch1_sources (W2 m ρ c)).trans (at2_sources m ρ c)
theorem at3_targets : W3 m ρ c (Proc.devRef .tc main_v3) = targets (m ((c.tc : Thread nD τ).loc main_arg1)) :=
  (stretch1_targets (W2 m ρ c)).trans (at2_targets m ρ c)
theorem at3_recip : W3 m ρ c (Proc.devRef .tc main_v12) = recipDegree (targets (m ((c.tc : Thread nD τ).loc main_arg1))) :=
  (stretch1_recip (W2 m ρ c)).trans (at2_recip m ρ c)
theorem at3_weights : W3 m ρ c (Proc.devRef .tc main_arg2) = m ((c.tc : Thread nD τ).loc main_arg2) :=
  (stretch1_weights (W2 m ρ c)).trans (at2_weights m ρ c)
theorem at3_bias : W3 m ρ c (Proc.devRef .tc main_arg3) = m ((c.tc : Thread nD τ).loc main_arg3) :=
  (stretch1_bias (W2 m ρ c)).trans (at2_bias m ρ c)

/-! ## After call 1 -/

theorem at4_features : W4 m ρ c (Proc.devRef .tc main_v34) = next (first (m ((c.tc : Thread nD τ).loc main_arg0)) (m ((c.tc : Thread nD τ).loc main_arg1))) (m ((c.tc : Thread nD τ).loc main_arg1)) :=
  (W4_arr m ρ c 3).trans ((SecondLayer.final (V3 m ρ) c).trans (by
    show Cert.Layer.mixRes (W3 m ρ c (Proc.devRef .tc main_v23)) (W3 m ρ c (Proc.devRef .tc main_v33)) (W3 m ρ c (Proc.devRef .tc main_v12)) = _
    rw [at3_features m ρ c, at3_sum m ρ c, at3_recip m ρ c]
    rfl))
theorem at4_sources : W4 m ρ c (Proc.devRef .tc main_v1) = sources (m ((c.tc : Thread nD τ).loc main_arg1)) :=
  (W4_of_ne m ρ c main_v1 (by decide)).trans (at3_sources m ρ c)
theorem at4_targets : W4 m ρ c (Proc.devRef .tc main_v3) = targets (m ((c.tc : Thread nD τ).loc main_arg1)) :=
  (W4_of_ne m ρ c main_v3 (by decide)).trans (at3_targets m ρ c)
theorem at4_recip : W4 m ρ c (Proc.devRef .tc main_v12) = recipDegree (targets (m ((c.tc : Thread nD τ).loc main_arg1))) :=
  ((W4_arr m ρ c 2).trans (((dat1 (V3 m ρ) c).arrAt_in 2 rfl _).trans (A_eq1 (V3 m ρ) c 2))).trans (at3_recip m ρ c)
theorem at4_weights : W4 m ρ c (Proc.devRef .tc main_arg2) = m ((c.tc : Thread nD τ).loc main_arg2) :=
  (W4_of_ne m ρ c main_arg2 (by decide)).trans (at3_weights m ρ c)
theorem at4_bias : W4 m ρ c (Proc.devRef .tc main_arg3) = m ((c.tc : Thread nD τ).loc main_arg3) :=
  (W4_of_ne m ρ c main_arg3 (by decide)).trans (at3_bias m ρ c)

/-! ## After the operations before call 2 -/

theorem at5_sum : W5 m ρ c (Proc.devRef .tc main_v44) = neighbourSum (next (first (m ((c.tc : Thread nD τ).loc main_arg0)) (m ((c.tc : Thread nD τ).loc main_arg1))) (m ((c.tc : Thread nD τ).loc main_arg1))) (sources (m ((c.tc : Thread nD τ).loc main_arg1))) (targets (m ((c.tc : Thread nD τ).loc main_arg1))) :=
  (stretch2_sum (W4 m ρ c)).trans (by rw [at4_features m ρ c, at4_sources m ρ c, at4_targets m ρ c])
theorem at5_features : W5 m ρ c (Proc.devRef .tc main_v34) = next (first (m ((c.tc : Thread nD τ).loc main_arg0)) (m ((c.tc : Thread nD τ).loc main_arg1))) (m ((c.tc : Thread nD τ).loc main_arg1)) :=
  (stretch2_features (W4 m ρ c)).trans (at4_features m ρ c)
theorem at5_sources : W5 m ρ c (Proc.devRef .tc main_v1) = sources (m ((c.tc : Thread nD τ).loc main_arg1)) :=
  (stretch2_sources (W4 m ρ c)).trans (at4_sources m ρ c)
theorem at5_targets : W5 m ρ c (Proc.devRef .tc main_v3) = targets (m ((c.tc : Thread nD τ).loc main_arg1)) :=
  (stretch2_targets (W4 m ρ c)).trans (at4_targets m ρ c)
theorem at5_recip : W5 m ρ c (Proc.devRef .tc main_v12) = recipDegree (targets (m ((c.tc : Thread nD τ).loc main_arg1))) :=
  (stretch2_recip (W4 m ρ c)).trans (at4_recip m ρ c)
theorem at5_weights : W5 m ρ c (Proc.devRef .tc main_arg2) = m ((c.tc : Thread nD τ).loc main_arg2) :=
  (stretch2_weights (W4 m ρ c)).trans (at4_weights m ρ c)
theorem at5_bias : W5 m ρ c (Proc.devRef .tc main_arg3) = m ((c.tc : Thread nD τ).loc main_arg3) :=
  (stretch2_bias (W4 m ρ c)).trans (at4_bias m ρ c)

/-! ## After call 2 -/

theorem at6_features : W6 m ρ c (Proc.devRef .tc main_v45) = next (next (first (m ((c.tc : Thread nD τ).loc main_arg0)) (m ((c.tc : Thread nD τ).loc main_arg1))) (m ((c.tc : Thread nD τ).loc main_arg1))) (m ((c.tc : Thread nD τ).loc main_arg1)) :=
  (W6_arr m ρ c 3).trans ((ThirdLayer.final (V5 m ρ) c).trans (by
    show Cert.Layer.mixRes (W5 m ρ c (Proc.devRef .tc main_v34)) (W5 m ρ c (Proc.devRef .tc main_v44)) (W5 m ρ c (Proc.devRef .tc main_v12)) = _
    rw [at5_features m ρ c, at5_sum m ρ c, at5_recip m ρ c]
    rfl))
theorem at6_sources : W6 m ρ c (Proc.devRef .tc main_v1) = sources (m ((c.tc : Thread nD τ).loc main_arg1)) :=
  (W6_of_ne m ρ c main_v1 (by decide)).trans (at5_sources m ρ c)
theorem at6_targets : W6 m ρ c (Proc.devRef .tc main_v3) = targets (m ((c.tc : Thread nD τ).loc main_arg1)) :=
  (W6_of_ne m ρ c main_v3 (by decide)).trans (at5_targets m ρ c)
theorem at6_recip : W6 m ρ c (Proc.devRef .tc main_v12) = recipDegree (targets (m ((c.tc : Thread nD τ).loc main_arg1))) :=
  ((W6_arr m ρ c 2).trans (((dat2 (V5 m ρ) c).arrAt_in 2 rfl _).trans (A_eq2 (V5 m ρ) c 2))).trans (at5_recip m ρ c)
theorem at6_weights : W6 m ρ c (Proc.devRef .tc main_arg2) = m ((c.tc : Thread nD τ).loc main_arg2) :=
  (W6_of_ne m ρ c main_arg2 (by decide)).trans (at5_weights m ρ c)
theorem at6_bias : W6 m ρ c (Proc.devRef .tc main_arg3) = m ((c.tc : Thread nD τ).loc main_arg3) :=
  (W6_of_ne m ρ c main_arg3 (by decide)).trans (at5_bias m ρ c)

/-! ## After the operations before call 3 -/

theorem at7_sum : W7 m ρ c (Proc.devRef .tc main_v55) = neighbourSum (next (next (first (m ((c.tc : Thread nD τ).loc main_arg0)) (m ((c.tc : Thread nD τ).loc main_arg1))) (m ((c.tc : Thread nD τ).loc main_arg1))) (m ((c.tc : Thread nD τ).loc main_arg1))) (sources (m ((c.tc : Thread nD τ).loc main_arg1))) (targets (m ((c.tc : Thread nD τ).loc main_arg1))) :=
  (stretch3_sum (W6 m ρ c)).trans (by rw [at6_features m ρ c, at6_sources m ρ c, at6_targets m ρ c])
theorem at7_features : W7 m ρ c (Proc.devRef .tc main_v45) = next (next (first (m ((c.tc : Thread nD τ).loc main_arg0)) (m ((c.tc : Thread nD τ).loc main_arg1))) (m ((c.tc : Thread nD τ).loc main_arg1))) (m ((c.tc : Thread nD τ).loc main_arg1)) :=
  (stretch3_features (W6 m ρ c)).trans (at6_features m ρ c)
theorem at7_recip : W7 m ρ c (Proc.devRef .tc main_v12) = recipDegree (targets (m ((c.tc : Thread nD τ).loc main_arg1))) :=
  (stretch3_recip (W6 m ρ c)).trans (at6_recip m ρ c)
theorem at7_weights : W7 m ρ c (Proc.devRef .tc main_arg2) = m ((c.tc : Thread nD τ).loc main_arg2) :=
  (stretch3_weights (W6 m ρ c)).trans (at6_weights m ρ c)
theorem at7_bias : W7 m ρ c (Proc.devRef .tc main_arg3) = m ((c.tc : Thread nD τ).loc main_arg3) :=
  (stretch3_bias (W6 m ρ c)).trans (at6_bias m ρ c)

/-! ## After call 3 -/

theorem at8_features : W8 m ρ c (Proc.devRef .tc main_v56) = next (next (next (first (m ((c.tc : Thread nD τ).loc main_arg0)) (m ((c.tc : Thread nD τ).loc main_arg1))) (m ((c.tc : Thread nD τ).loc main_arg1))) (m ((c.tc : Thread nD τ).loc main_arg1))) (m ((c.tc : Thread nD τ).loc main_arg1)) :=
  (W8_arr m ρ c 3).trans ((FourthLayer.final (V7 m ρ) c).trans (by
    show Cert.Layer.mixRes (W7 m ρ c (Proc.devRef .tc main_v45)) (W7 m ρ c (Proc.devRef .tc main_v55)) (W7 m ρ c (Proc.devRef .tc main_v12)) = _
    rw [at7_features m ρ c, at7_sum m ρ c, at7_recip m ρ c]
    rfl))
theorem at8_weights : W8 m ρ c (Proc.devRef .tc main_arg2) = m ((c.tc : Thread nD τ).loc main_arg2) :=
  (W8_of_ne m ρ c main_arg2 (by decide)).trans (at7_weights m ρ c)
theorem at8_bias : W8 m ρ c (Proc.devRef .tc main_arg3) = m ((c.tc : Thread nD τ).loc main_arg3) :=
  (W8_of_ne m ρ c main_arg3 (by decide)).trans (at7_bias m ρ c)

/-! ## After the last call -/

/-- The result buffer at the last boundary is the network of the launch arrays. -/
theorem result_eq : W9 m ρ c (Proc.devRef .tc main_v57) = net (m ((c.tc : Thread nD τ).loc main_arg0)) (m ((c.tc : Thread nD τ).loc main_arg1)) (m ((c.tc : Thread nD τ).loc main_arg2)) (m ((c.tc : Thread nD τ).loc main_arg3)) :=
  (W9_arr m ρ c 3).trans ((OutputLayer.final (V8 m ρ) c).trans (by
    show Cert.LibAffine.affine (W8 m ρ c (Proc.devRef .tc main_v56)) (W8 m ρ c (Proc.devRef .tc main_arg2)) (W8 m ρ c (Proc.devRef .tc main_arg3)) = _
    rw [at8_features m ρ c, at8_weights m ρ c, at8_bias m ρ c]
    rfl))

end Cert.KernelIdeal.Fold

end
-- ==== Proof.Reference.lean ====
/-
  The reference computes the network.

  Stage by stage: its edge vectors, reciprocal degrees and neighbour sums are the named graph functions (the same
  array operations, spelt in the reference's own names); each of its four layers is the layer of its operands, read
  entry by entry from the array spelling; and its last four operations are features · weights + bias.
-/
import proofs.«182166_j7241314861278_1_alg».proof.Proof.Gen.ReferenceIdeal.Read
import proofs.«182166_j7241314861278_1_alg».proof.Proof.Network

set_option maxRecDepth 16384

noncomputable section

namespace Cert.ReferenceIdeal.AsNetwork

open Cert.ReferenceIdeal Cert.ReferenceIdeal.Gen Cert.ReferenceIdeal.Read Idealize.ShloMosaic

/-! ## The graph side -/

theorem sources_eq (x1 : Vec Ideal S2x1600000 .i32) : val_main_v1 (F := Ideal) x1 = Cert.KernelIdeal.Graph.sources x1 := by
  unfold val_main_v1 val_main_v0 Cert.KernelIdeal.Graph.sources
  rfl

theorem targets_eq (x1 : Vec Ideal S2x1600000 .i32) : val_main_v3 (F := Ideal) x1 = Cert.KernelIdeal.Graph.targets x1 := by
  unfold val_main_v3 val_main_v2 Cert.KernelIdeal.Graph.targets
  rfl

/-- The reference's column of reciprocal degrees is the named one. -/
theorem recip_eq (x1 : Vec Ideal S2x1600000 .i32) :
    val_main_v12 (F := Ideal) x1 = Cert.KernelIdeal.Graph.recipDegree (Cert.KernelIdeal.Graph.targets x1) := by
  unfold val_main_v12 val_main_v11 val_main_v10 val_main_cst_2 val_main_v9 val_main_v8 val_main_cst_1 val_main_v7 val_main_v6 val_main_v5
    val_main_cst_0 val_main_v4 val_main_cst
  rw [targets_eq]
  rfl

/-- The first neighbour sum the reference takes is the named one. -/
theorem sum0_eq (x0 : Vec Ideal S100000x64 .f32) (x1 : Vec Ideal S2x1600000 .i32) :
    val_main_v22 (F := Ideal) x0 x1 = Cert.KernelIdeal.Graph.neighbourSum x0 (Cert.KernelIdeal.Graph.sources x1) (Cert.KernelIdeal.Graph.targets x1) := by
  unfold val_main_v22 val_main_v21 val_main_v20 val_main_cst_4 val_main_v19 val_main_v18 val_main_v17 val_main_v16 val_main_v15 val_main_c_3 val_main_v14 val_main_v13 val_main_c
  rw [sources_eq, targets_eq]
  rfl

/-- The second neighbour sum the reference takes is the named one. -/
theorem sum1_eq (x0 : Vec Ideal S100000x64 .f32) (x1 : Vec Ideal S2x1600000 .i32) :
    val_main_v38 (F := Ideal) x0 x1 = Cert.KernelIdeal.Graph.neighbourSum (val_main_v28 (F := Ideal) x0 x1) (Cert.KernelIdeal.Graph.sources x1) (Cert.KernelIdeal.Graph.targets x1) := by
  unfold val_main_v38 val_main_v37 val_main_v36 val_main_cst_8 val_main_v35 val_main_v34 val_main_v33 val_main_v32 val_main_v31 val_main_c_7 val_main_v30 val_main_v29 val_main_c_6
  rw [sources_eq, targets_eq]
  rfl

/-- The third neighbour sum the reference takes is the named one. -/
theorem sum2_eq (x0 : Vec Ideal S100000x64 .f32) (x1 : Vec Ideal S2x1600000 .i32) :
    val_main_v55 (F := Ideal) x0 x1 = Cert.KernelIdeal.Graph.neighbourSum (val_main_v45 (F := Ideal) x0 x1) (Cert.KernelIdeal.Graph.sources x1) (Cert.KernelIdeal.Graph.targets x1) := by
  unfold val_main_v55 val_main_v54 val_main_v53 val_main_cst_12 val_main_v52 val_main_v51 val_main_v50 val_main_v49 val_main_v48 val_main_c_11 val_main_v47 val_main_v46 val_main_c_10
  rw [sources_eq, targets_eq]
  rfl

/-- The fourth neighbour sum the reference takes is the named one. -/
theorem sum3_eq (x0 : Vec Ideal S100000x64 .f32) (x1 : Vec Ideal S2x1600000 .i32) :
    val_main_v72 (F := Ideal) x0 x1 = Cert.KernelIdeal.Graph.neighbourSum (val_main_v62 (F := Ideal) x0 x1) (Cert.KernelIdeal.Graph.sources x1) (Cert.KernelIdeal.Graph.targets x1) := by
  unfold val_main_v72 val_main_v71 val_main_v70 val_main_cst_16 val_main_v69 val_main_v68 val_main_v67 val_main_v66 val_main_v65 val_main_c_15 val_main_v64 val_main_v63 val_main_c_14
  rw [sources_eq, targets_eq]
  rfl

/-! ## The layers -/

/-- The reference's layer 0 is the layer of its operands. -/
theorem layer0_eq (x0 : Vec Ideal S100000x64 .f32) (x1 : Vec Ideal S2x1600000 .i32) :
    val_main_v28 (F := Ideal) x0 x1 = Cert.KernelIdeal.Network.first x0 x1 := by
  unfold val_main_v28 val_main_v27 val_main_v26 val_main_cst_5 val_main_v25 val_main_v24 val_main_v23 val_main_call0_v0 val_main_call0_cst
  rw [sum0_eq, recip_eq]
  exact Cert.Layer.array_mix x0 _ _ bcast_S100000x1_S100000x64_0_1 bcast_S_S100000x64

/-- The reference's layer 1 is the layer of its operands. -/
theorem layer1_eq (x0 : Vec Ideal S100000x64 .f32) (x1 : Vec Ideal S2x1600000 .i32) :
    val_main_v45 (F := Ideal) x0 x1 = Cert.KernelIdeal.Network.next (val_main_v28 (F := Ideal) x0 x1) x1 := by
  unfold val_main_v45 val_main_v44 val_main_v43 val_main_v42 val_main_cst_9 val_main_v41 val_main_v40 val_main_v39 val_main_call1_v0 val_main_call1_cst
  rw [sum1_eq, recip_eq]
  exact Cert.Layer.array_mixRes (val_main_v28 (F := Ideal) x0 x1) _ _ bcast_S100000x1_S100000x64_0_1 bcast_S_S100000x64

/-- The reference's layer 2 is the layer of its operands. -/
theorem layer2_eq (x0 : Vec Ideal S100000x64 .f32) (x1 : Vec Ideal S2x1600000 .i32) :
    val_main_v62 (F := Ideal) x0 x1 = Cert.KernelIdeal.Network.next (val_main_v45 (F := Ideal) x0 x1) x1 := by
  unfold val_main_v62 val_main_v61 val_main_v60 val_main_v59 val_main_cst_13 val_main_v58 val_main_v57 val_main_v56 val_main_call2_v0 val_main_call2_cst
  rw [sum2_eq, recip_eq]
  exact Cert.Layer.array_mixRes (val_main_v45 (F := Ideal) x0 x1) _ _ bcast_S100000x1_S100000x64_0_1 bcast_S_S100000x64

/-- The reference's layer 3 is the layer of its operands. -/
theorem layer3_eq (x0 : Vec Ideal S100000x64 .f32) (x1 : Vec Ideal S2x1600000 .i32) :
    val_main_v79 (F := Ideal) x0 x1 = Cert.KernelIdeal.Network.next (val_main_v62 (F := Ideal) x0 x1) x1 := by
  unfold val_main_v79 val_main_v78 val_main_v77 val_main_v76 val_main_cst_17 val_main_v75 val_main_v74 val_main_v73 val_main_call3_v0 val_main_call3_cst
  rw [sum3_eq, recip_eq]
  exact Cert.Layer.array_mixRes (val_main_v62 (F := Ideal) x0 x1) _ _ bcast_S100000x1_S100000x64_0_1 bcast_S_S100000x64

/-! ## The whole -/

/-- The reference's result is the network of its arguments. -/
theorem reference_is_net (x0 : Vec Ideal S100000x64 .f32) (x1 : Vec Ideal S2x1600000 .i32) (x2 : Vec Ideal S64x128 .f32)
    (x3 : Vec Ideal S128 .f32) :
    val_main_v83 (F := Ideal) x0 x1 x2 x3 = Cert.KernelIdeal.Network.net x0 x1 x2 x3 := by
  unfold val_main_v83 val_main_v82 val_main_v81 val_main_v80 Cert.KernelIdeal.Network.net
  rw [layer3_eq, layer2_eq, layer1_eq, layer0_eq]
  exact Cert.LibAffine.host_affine dot_S100000x64_S64x128_S100000x128_1_0_0_1_n_n rfl rfl rfl rfl rfl rfl none _ x2 x3
    bcast_S128_S1x128_1 bcast_S1x128_S100000x128_0_1

end Cert.ReferenceIdeal.AsNetwork

end
-- ==== Proof.lean ====
/-
  A four-layer graph network followed by a linear layer, computed by five tiled calls with array operations between
  them, against the same network written with whole-array operations.

  Both programs take node features x, an edge list, weights w and a bias b. Both first form, with the same array
  operations, the edges' sources and targets, the column r of reciprocal degrees (1 / max(edges into the node, 1)), and
  — once per layer — the neighbour sum S(h): h's row at each edge's source added into the row of its target. A layer is
  max(½ · (h + S(h) · r), 0); the first layer starts from x, the next three add their input back; the result is
  h₃ · w + b. One program computes each layer and the last product 5000 rows at a time (every entry of a layer reads one
  row of each operand, so the row blocks of the result are the function of the whole arrays restricted to those rows,
  and twenty blocks cover the 100000 rows), narrows the product's operands to a shorter float format first (which
  changes nothing over the extended reals) and accumulates it into zero; the other applies the same arithmetic to whole
  arrays. Over the extended reals the two are one function of (x, edge list, w, b), entry by entry: every operation is
  met in the same order on both sides, the neighbour sum is the same composition of array operations and is never
  opened, and the two products are the same finite sum. No law that needs finite entries is used.

  The three run statements (each program terminates without a fault and leaves its arguments as launched) are the
  generated runs; the idealized program differs from the printed one by no rewrite.
-/
import proofs.«182166_j7241314861278_1_alg».proof.Defs
import proofs.«182166_j7241314861278_1_alg».proof.Proof.Gen.Kernel
import proofs.«182166_j7241314861278_1_alg».proof.Proof.Gen.Kernel.Frame
import proofs.«182166_j7241314861278_1_alg».proof.Proof.Gen.KernelIdeal
import proofs.«182166_j7241314861278_1_alg».proof.Proof.Gen.KernelIdeal.Frame
import proofs.«182166_j7241314861278_1_alg».proof.Proof.Gen.ReferenceIdeal
import proofs.«182166_j7241314861278_1_alg».proof.Proof.Gen.ReferenceIdeal.Run
import proofs.«182166_j7241314861278_1_alg».proof.Proof.Gen.ReferenceIdeal.Read
import proofs.«182166_j7241314861278_1_alg».proof.Proof.Gen.Pre_finite_inputs
import proofs.«182166_j7241314861278_1_alg».proof.Proof.Whole
import proofs.«182166_j7241314861278_1_alg».proof.Proof.Fold
import proofs.«182166_j7241314861278_1_alg».proof.Proof.Reference
import Idealize.ShloMosaic.Adequacy
import Idealize.ShloMosaic.Init

noncomputable section

namespace Cert.Proof

open Idealize.ShloMosaic Idealize.ShloMosaic.TcCoe Idealize.SL.Sem

/-- The printed program runs and keeps its arguments. -/
theorem frame_printed : Cert.frame_Kernel := fun m ρ _ => Cert.Kernel.Gen.frame m ρ

/-- The idealized program runs and keeps its arguments. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the network of those arguments in their result. -/
theorem algebraic : Cert.algebraic_KernelIdeal_ReferenceIdeal := by
  intro m ρ m' ρ' _ hagree
  refine ⟨fun c => Cert.KernelIdeal.Network.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Fold.result_eq m ρ c), (h c).2⟩)
      (Cert.KernelIdeal.Whole.run_named (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v83_eq, Cert.ReferenceIdeal.AsNetwork.reference_is_net,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_printed, frame_ideal, frame_reference, preserves, algebraic⟩

end Cert.Proof

end
